-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn_part1 {F : FTy → Type} [FloatOps F] (main_arg2 : FVec F S16384x64 .f32) (main_arg3 : FVec F S16384x64 .f32) (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  let main_cst_6 : FVec F S_ .f32 := constant S_ .f32 0x00000000#32
  let main_v19 : FVec F S16384x64 .f32 := broadcastInDim S16384x64 ![] bcast_S_S16384x64 main_cst_6
  let main_v20 : IVec S16384x64 1 := cmpf .ogt main_arg2 main_v19
  let main_c_7 : IVec S_ 1 := constantI S_ 1 1#1
  let main_v21 : IVec S_ 1 := (fun x v => Host.reduce IntOp.andi x v reducesTo_S16384x64_S_d0_1 h_S_) main_v20 main_c_7
  let main_v22 : IVec S_ 1 := andi main_v18 main_v21
  let main_cst_8 : FVec F S_ .f32 := constant S_ .f32 0x00000000#32
  let main_v23 : FVec F S16384x64 .f32 := broadcastInDim S16384x64 ![] bcast_S_S16384x64 main_cst_8
  let main_v24 : IVec S16384x64 1 := cmpf .ogt main_arg3 main_v23
  let main_c_9 : IVec S_ 1 := constantI S_ 1 1#1
  let main_v25 : IVec S_ 1 := (fun x v => Host.reduce IntOp.andi x v reducesTo_S16384x64_S_d0_1 h_S_) main_v24 main_c_9
  let main_v26 : IVec S_ 1 := andi main_v22 main_v25
  main_v26

def fn {F : FTy → Type} [FloatOps F] (main_arg0 : FVec F S16384x64 .f32) (main_arg1 : FVec F S16384x64 .f32) (main_arg2 : FVec F S16384x64 .f32) (main_arg3 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384x64 .f32 := Host.absf main_arg3
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_arg2 main_arg3 main_v13 main_v16
-- ==== Kernel.lean ====
abbrev S16384x64 : Shape := ⟨2, ![16384, 64]⟩
abbrev S1x1 : Shape := ⟨2, ![1, 1]⟩
abbrev S2048x64 : Shape := ⟨2, ![2048, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 6
  | .vmem => 17
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x64, .f32⟩
  | .hbm, ⟨4, _⟩ => ⟨S1x1, .f32⟩
  | .hbm, ⟨5, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S1x1, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v69 : BitVec 1 := Scalar.cmpi .eq arg0 c7_i32
  let v70 : BitVec 32 := Scalar.extui v69
  let c0_i32_49 : BitVec 32 := 0#32
  let v71 : BitVec 1 := Scalar.cmpi .ne v70 c0_i32_49
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x64_S2048x64_0_0 : ∀ a, (![0, 0] : Fin 2 → Nat) a + S2048x64.size a ≤ S2048x64.size a
  h_S2048x64 : 0 < S2048x64.numel
  reduces_S2048x64_S64 : S2048x64.Reduces [0] S64
  shapeCasts_S64_S1x64 : S64.ShapeCasts S1x64
  reduces_S64x64_S64 : S64x64.Reduces [1] S64
  shapeCasts_S64_S64x1 : S64.ShapeCasts S64x1
  reduces_S64x1_S1 : S64x1.Reduces [0] S1
  shapeCasts_S1_S1x1 : S1.ShapeCasts S1x1
  reduces_S1x64_S1 : S1x64.Reduces [1] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S2048x64_S2048x64_S64x64_0_0_1_1_n_n_wf : DotDims.WF S2048x64 S2048x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x64x1 : Shape := ⟨3, ![16384, 64, 1]⟩
abbrev S16384x1x64 : Shape := ⟨3, ![16384, 1, 64]⟩
abbrev S16384x64x64 : Shape := ⟨3, ![16384, 64, 64]⟩
abbrev S_ : Shape := ⟨0, ![]⟩
abbrev S64x64 : Shape := ⟨2, ![64, 64]⟩

abbrev nBuf : Space → Nat
  | .hbm => 64
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S16384x64x1, .f32⟩
  | .hbm, ⟨6, _⟩ => ⟨S16384x64, .f32⟩
  | .hbm, ⟨7, _⟩ => ⟨S16384x1x64, .f32⟩
  | .hbm, ⟨8, _⟩ => ⟨S16384x64, .f32⟩
  | .hbm, ⟨9, _⟩ => ⟨S16384x64x1, .f32⟩
  | .hbm, ⟨10, _⟩ => ⟨S16384x64, .f32⟩
  | .hbm, ⟨11, _⟩ => ⟨S16384x1x64, .f32⟩
  | .hbm, ⟨12, _⟩ => ⟨S16384x1x64, .f32⟩
  | .hbm, ⟨13, _⟩ => ⟨S16384x64x1, .f32⟩
  | .hbm, ⟨14, _⟩ => ⟨S16384x64x64, .f32⟩
  | .hbm, ⟨15, _⟩ => ⟨S16384x64x64, .f32⟩
  | .hbm, ⟨16, _⟩ => ⟨S16384x64x64, .f32⟩
  | .hbm, ⟨17, _⟩ => ⟨S16384x64x64, .f32⟩
  | .hbm, ⟨18, _⟩ => ⟨S16384x64x64, .f32⟩
  | .hbm, ⟨19, _⟩ => ⟨S16384x64x64, .f32⟩
  | .hbm, ⟨20, _⟩ => ⟨S16384x64x64, .f32⟩
  | .hbm, ⟨21, _⟩ => ⟨S16384x64x64, .f32⟩
  | .hbm, ⟨22, _⟩ => ⟨S16384x64x64, .f32⟩
  | .hbm, ⟨23, _⟩ => ⟨S_, .f32⟩
  | .hbm, ⟨24, _⟩ => ⟨S16384x64x1, .f32⟩
  | .hbm, ⟨25, _⟩ => ⟨S16384x64x1, .f32⟩
  | .hbm, ⟨26, _⟩ => ⟨S16384x64x64, .f32⟩
  | .hbm, ⟨27, _⟩ => ⟨S16384x64x64, .f32⟩
  | .hbm, ⟨28, _⟩ => ⟨S16384x64x64, .f32⟩
  | .hbm, ⟨29, _⟩ => ⟨S_, .f32⟩
  | .hbm, ⟨30, _⟩ => ⟨S16384x64x64, .f32⟩
  | .hbm, ⟨31, _⟩ => ⟨S16384x64x64, .f32⟩
  | .hbm, ⟨32, _⟩ => ⟨S_, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S16384x64x64, .f32⟩
  | .hbm, ⟨38, _⟩ => ⟨S16384x64x64, .f32⟩
  | .hbm, ⟨39, _⟩ => ⟨S16384x64x64, .f32⟩
  | .hbm, ⟨40, _⟩ => ⟨S16384x64x64, .f32⟩
  | .hbm, ⟨41, _⟩ => ⟨S16384x64x64, .f32⟩
  | .hbm, ⟨42, _⟩ => ⟨S_, .f32⟩
  | .hbm, ⟨43, _⟩ => ⟨S16384x1x64, .f32⟩
  | .hbm, ⟨44, _⟩ => ⟨S16384x1x64, .f32⟩
  | .hbm, ⟨45, _⟩ => ⟨S16384x64x64, .f32⟩
  | .hbm, ⟨46, _⟩ => ⟨S16384x64x64, .f32⟩
  | .hbm, ⟨47, _⟩ => ⟨S16384x64x64, .f32⟩
  | .hbm, ⟨48, _⟩ => ⟨S_, .f32⟩
  | .hbm, ⟨49, _⟩ => ⟨S16384x64x64, .f32⟩
  | .hbm, ⟨50, _⟩ => ⟨S16384x64x64, .f32⟩
  | .hbm, ⟨51, _⟩ => ⟨S_, .f32⟩
  | .hbm, ⟨52, _⟩ => ⟨S64x64, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x1x64_S16384x64x64_0_1_2 : S16384x1x64.BroadcastsInDim S16384x64x64 (![0, 1, 2] : Fin 3 → Fin S16384x64x64.rank)
  bcast_S16384x64x1_S16384x64x64_0_1_2 : S16384x64x1.BroadcastsInDim S16384x64x64 (![0, 1, 2] : Fin 3 → Fin S16384x64x64.rank)
  bcast_S_S16384x64x1 : S_.BroadcastsInDim S16384x64x1 (![] : Fin 0 → Fin S16384x64x1.rank)
  bcast_S_S16384x64x64 : S_.BroadcastsInDim S16384x64x64 (![] : Fin 0 → Fin S16384x64x64.rank)
  reducesTo_S16384x64x64_S64x64_d0 : S16384x64x64.ReducesTo [0] S64x64
  h_S_ : 0 < S_.numel
  bcast_S_S64x64 : S_.BroadcastsInDim S64x64 (![] : Fin 0 → Fin S64x64.rank)
  bcast_S_S16384x1x64 : S_.BroadcastsInDim S16384x1x64 (![] : Fin 0 → Fin S16384x1x64.rank)
  reducesTo_S64x64_S_d0_1 : S64x64.ReducesTo [0, 1] S_

variable [Facts₀]

class Facts : Prop extends Facts₀ where

variable [Facts]
-- ==== Proof.KerCanon.lean ====
/-
  What each control case of the kernel's body leaves in the eight accumulators it carries from one grid point to the
  next, and in the output block at the last point — as pure terms of the point's four input blocks and of the values
  the accumulators held before. Every store of the body covers its whole buffer, so what a buffer ends holding is the
  payload of its last store; a load of a buffer after such a store reads that payload back.
-/
import proofs.«105850_j61564061221261_1_alg».proof.Proof.Gen.KernelIdeal.Frame.RunC
import Idealize.ShloMosaic.Lib.Pipeline.Value
import Idealize.ShloMosaic.Lib.Tactic

set_option maxRecDepth 16384

noncomputable section

namespace Cert.KernelIdeal.KC

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S1x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole)

/-! ## A middle point: each accumulator is stored once, its new value the old one plus the block's term -/

/-- A middle point leaves in accumulator 0 (∑ (1/s²)·v²) its carried value plus this block's term. -/
theorem canonB0 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.1 = k0_pay21 x2 x3 xs0 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 1 (∑ (1/s²)·u²) its carried value plus this block's term. -/
theorem canonB1 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.1 = k0_pay22 x1 x2 xs1 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 2 (∑ (g/s²)·u) its carried value plus this block's term. -/
theorem canonB2 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.1 = k0_pay24 xs2 (k0_pay23 x0 x1 x2) := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 3 (∑ s²·(1/v²)) its carried value plus this block's term. -/
theorem canonB3 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.1 = k0_pay25 (k0_pay14 x2) (k0_pay17 x3) xs3 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 4 (∑ g²·(1/v²)) its carried value plus this block's term. -/
theorem canonB4 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.1 = k0_pay26 (k0_pay17 x3) (k0_pay18 x0) xs4 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 5 (∑ g·(u/v²)) its carried value plus this block's term. -/
theorem canonB5 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.1 = k0_pay27 x0 (k0_pay20 x1 x3) xs5 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 6 (∑ g²/s²) its carried value plus this block's term. -/
theorem canonB6 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.2.1 = k0_pay28 (k0_pay16 x2) (k0_pay18 x0) xs6 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- A middle point leaves in accumulator 7 (∑ u²/v²) its carried value plus this block's term. -/
theorem canonB7 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.2.2.1 = k0_pay1 (k0_pay17 x3) (k0_pay19 x1) xs7 := by
  unfold kernelRun0_B
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-! ## The last point: the same eight stores, then the combination of what they left -/

/-- The last point leaves in accumulator 0 (∑ (1/s²)·v²) its carried value plus this block's term. -/
theorem canonC0 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.1 = k0_pay21 x2 x3 xs0 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 1 (∑ (1/s²)·u²) its carried value plus this block's term. -/
theorem canonC1 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.1 = k0_pay22 x1 x2 xs1 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 2 (∑ (g/s²)·u) its carried value plus this block's term. -/
theorem canonC2 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.1 = k0_pay24 xs2 (k0_pay23 x0 x1 x2) := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 3 (∑ s²·(1/v²)) its carried value plus this block's term. -/
theorem canonC3 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.1 = k0_pay25 (k0_pay14 x2) (k0_pay17 x3) xs3 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 4 (∑ g²·(1/v²)) its carried value plus this block's term. -/
theorem canonC4 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.1 = k0_pay26 (k0_pay17 x3) (k0_pay18 x0) xs4 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 5 (∑ g·(u/v²)) its carried value plus this block's term. -/
theorem canonC5 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.1 = k0_pay27 x0 (k0_pay20 x1 x3) xs5 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 6 (∑ g²/s²) its carried value plus this block's term. -/
theorem canonC6 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.2.1 = k0_pay28 (k0_pay16 x2) (k0_pay18 x0) xs6 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point leaves in accumulator 7 (∑ u²/v²) its carried value plus this block's term. -/
theorem canonC7 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).2.2.2.2.2.2.2.2.1 = k0_pay1 (k0_pay17 x3) (k0_pay19 x1) xs7 := by
  unfold kernelRun0_C
  dsimp only
  sl_unfold_words
  rw [View.canon_unit_zero hz]
  simp only [View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The last point's one store into the output block: the final combination of the eight accumulators as this point's
    stores left them (each read back whole after its store). -/
theorem canonC_out (hc0 : ¬cond0_0 i) (hc1 : cond0_1 i) (x0 x1 x2 x3 : Vec F S2048x64 .f32) (xs0 xs1 xs2 xs3 xs4 xs5 : Vec F S64x64 .f32) (xs6 xs7 : Vec F S1x64 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7).1
      = k0_pay2 (k0_pay11 (k0_pay21 x2 x3 xs0) (k0_pay22 x1 x2 xs1) (k0_pay24 xs2 (k0_pay23 x0 x1 x2)) (k0_pay25 (k0_pay14 x2) (k0_pay17 x3) xs3)
          (k0_pay26 (k0_pay17 x3) (k0_pay18 x0) xs4) (k0_pay27 x0 (k0_pay20 x1 x3) xs5) (k0_pay28 (k0_pay16 x2) (k0_pay18 x0) xs6) (k0_pay1 (k0_pay17 x3) (k0_pay19 x1) xs7)) k0_pay12 := by
  unfold kernelRun0_C
  dsimp only
  sl_unfold_words
  rw [View.canon_unit_zero hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-! ## The first point: each accumulator is zeroed, read back, and stored with the block's term added -/

/-- The first point leaves in accumulator 0 (∑ (1/s²)·v²) the zero fill plus this block's term. -/
theorem canonA0 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.1 = k0_pay21 x2 x3 k0_pay3 := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 1 (∑ (1/s²)·u²) the zero fill plus this block's term. -/
theorem canonA1 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.1 = k0_pay22 x1 x2 k0_pay4 := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 2 (∑ (g/s²)·u) the zero fill plus this block's term. -/
theorem canonA2 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.1 = k0_pay24 k0_pay5 (k0_pay23 x0 x1 x2) := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 3 (∑ s²·(1/v²)) the zero fill plus this block's term. -/
theorem canonA3 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.1 = k0_pay25 (k0_pay14 x2) (k0_pay17 x3) k0_pay6 := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 4 (∑ g²·(1/v²)) the zero fill plus this block's term. -/
theorem canonA4 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.1 = k0_pay26 (k0_pay17 x3) (k0_pay18 x0) k0_pay7 := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 5 (∑ g·(u/v²)) the zero fill plus this block's term. -/
theorem canonA5 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.1 = k0_pay27 x0 (k0_pay20 x1 x3) k0_pay8 := by
  unfold kernelRun0_A
  dsimp only
  sl_unfold_words
  rw [View.canon_cons_unit_zero (S := S64x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 6 (∑ g²/s²) the zero fill plus this block's term. -/
theorem canonA6 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.1 = k0_pay28 (k0_pay16 x2) (k0_pay18 x0) k0_pay9 := by
  unfold kernelRun0_A
  dsimp only
  sl_unfold_words
  rw [View.canon_cons_unit_zero (S := S1x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

/-- The first point leaves in accumulator 7 (∑ u²/v²) the zero fill plus this block's term. -/
theorem canonA7 (hc0 : cond0_0 i) (hc1 : ¬cond0_1 i) (x0 x1 x2 x3 : Vec F S2048x64 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3).2.2.2.2.2.2.2.2.1 = k0_pay1 (k0_pay17 x3) (k0_pay19 x1) (k0_pay13 k0_pay10) := by
  unfold kernelRun0_A
  dsimp only
  sl_unfold_words
  rw [View.canon_cons_unit_zero (S := S1x64) hz]
  simp only [View.readCov_unit_zero (S := S64x64) _ hz, View.readCov_unit_zero (S := S1x64) _ hz, View.readAt_eq_ld, harg1.read_unread, harg2.read_unread, harg3.read_unread, harg4.read_unread, harg6.read_unread, harg7.read_unread, harg8.read_unread, harg9.read_unread, harg10.read_unread, harg11.read_unread, harg12.read_unread, harg13.read_unread, View.ld_unit_zero (S := S2048x64) hz, View.ld_unit_zero (S := S64x64) hz, View.ld_unit_zero (S := S1x64) hz]

end Cert.KernelIdeal.KC
end
-- ==== Proof.KerTuple.lean ====
/-
  What the kernel's eight carried accumulators and its output block hold after each grid point, as terms of the point's
  input blocks and of what the accumulators held after the point before: the frame certificate's point-by-point data
  (`outsAt0`: by recursion on the point, each case's stores read back) rewritten with what each case's stores leave
  (Proof/KerCanon.lean). At the first point every accumulator is the zero fill plus the first block's term; at every later
  point, the last included, it is its previous value plus that point's block's term; and the last point also stores, into
  the output block, the final combination of the eight accumulators as that point leaves them.
-/
import proofs.«105850_j61564061221261_1_alg».proof.Proof.FrameKernelIdealP
import proofs.«105850_j61564061221261_1_alg».proof.Proof.KerCanon

set_option maxRecDepth 16384

noncomputable section

namespace Cert.KernelIdeal.KT

open Idealize.ShloMosaic Idealize.ShloMosaic.TcCoe Idealize.SL.Sem
open Cert.KernelIdeal Cert.KernelIdeal.Gen Cert.KernelIdeal.GenP Cert.KernelIdeal.KC

variable {F : FTy → Type} [FloatOps F]

section Cases

variable (c : Dev nD) (i : grid0.Coords) (arg1 : Memref sig .tc .vmem S2048x64 .f32) (harg1 : arg1.IsWhole) (arg2 : Memref sig .tc .vmem S2048x64 .f32) (harg2 : arg2.IsWhole) (arg3 : Memref sig .tc .vmem S2048x64 .f32) (harg3 : arg3.IsWhole) (arg4 : Memref sig .tc .vmem S2048x64 .f32) (harg4 : arg4.IsWhole) (arg5 : Memref sig .tc .vmem S1x1 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S1x64 .f32) (harg13 : arg13.IsWhole)

theorem sA0 (hc0 : cond0_0 i) (hc1 : ¬cond0_1 i) (x0 x1 x2 x3 : Vec F S2048x64 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay21 x2 x3 k0_pay3 :=
  (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB0 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay21 x2 x3 xs0 :=
  (View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC0 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay21 x2 x3 xs0 :=
  (View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA1 (hc0 : cond0_0 i) (hc1 : ¬cond0_1 i) (x0 x1 x2 x3 : Vec F S2048x64 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay22 x1 x2 k0_pay4 :=
  (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB1 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay22 x1 x2 xs1 :=
  (View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC1 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay22 x1 x2 xs1 :=
  (View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA2 (hc0 : cond0_0 i) (hc1 : ¬cond0_1 i) (x0 x1 x2 x3 : Vec F S2048x64 .f32) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay24 k0_pay5 (k0_pay23 x0 x1 x2) :=
  (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB2 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay24 xs2 (k0_pay23 x0 x1 x2) :=
  (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC2 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay24 xs2 (k0_pay23 x0 x1 x2) :=
  (View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA3 (hc0 : cond0_0 i) (hc1 : ¬cond0_1 i) (x0 x1 x2 x3 : Vec F S2048x64 .f32) :
    sout0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay25 (k0_pay14 x2) (k0_pay17 x3) k0_pay6 :=
  (View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB3 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay25 (k0_pay14 x2) (k0_pay17 x3) xs3 :=
  (View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC3 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay25 (k0_pay14 x2) (k0_pay17 x3) xs3 :=
  (View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA4 (hc0 : cond0_0 i) (hc1 : ¬cond0_1 i) (x0 x1 x2 x3 : Vec F S2048x64 .f32) :
    sout0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay26 (k0_pay17 x3) (k0_pay18 x0) k0_pay7 :=
  (View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB4 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay26 (k0_pay17 x3) (k0_pay18 x0) xs4 :=
  (View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC4 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay26 (k0_pay17 x3) (k0_pay18 x0) xs4 :=
  (View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA5 (hc0 : cond0_0 i) (hc1 : ¬cond0_1 i) (x0 x1 x2 x3 : Vec F S2048x64 .f32) :
    sout0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay27 x0 (k0_pay20 x1 x3) k0_pay8 :=
  (View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB5 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay27 x0 (k0_pay20 x1 x3) xs5 :=
  (View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC5 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay27 x0 (k0_pay20 x1 x3) xs5 :=
  (View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA6 (hc0 : cond0_0 i) (hc1 : ¬cond0_1 i) (x0 x1 x2 x3 : Vec F S2048x64 .f32) :
    sout0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay28 (k0_pay16 x2) (k0_pay18 x0) k0_pay9 :=
  (View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB6 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay28 (k0_pay16 x2) (k0_pay18 x0) xs6 :=
  (View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC6 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay28 (k0_pay16 x2) (k0_pay18 x0) xs6 :=
  (View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sA7 (hc0 : cond0_0 i) (hc1 : ¬cond0_1 i) (x0 x1 x2 x3 : Vec F S2048x64 .f32) :
    sout0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 = k0_pay1 (k0_pay17 x3) (k0_pay19 x1) (k0_pay13 k0_pay10) :=
  (View.read_writes_eq_canon _ _ _ (scover0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)).trans
    (canonA7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)

theorem sB7 (hc0 : ¬cond0_0 i) (hc1 : ¬cond0_1 i) (x0 x1 x2 x3 : Vec F S2048x64 .f32) (xs0 xs1 xs2 xs3 xs4 xs5 : Vec F S64x64 .f32) (xs6 xs7 : Vec F S1x64 .f32) :
    sout0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay1 (k0_pay17 x3) (k0_pay19 x1) xs7 :=
  (View.read_writes_eq_canon _ _ _ (scover0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonB7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

theorem sC7 (hc0 : ¬cond0_0 i) (hc1 : cond0_1 i) (x0 x1 x2 x3 : Vec F S2048x64 .f32) (xs0 xs1 xs2 xs3 xs4 xs5 : Vec F S64x64 .f32) (xs6 xs7 : Vec F S1x64 .f32) :
    sout0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7 = k0_pay1 (k0_pay17 x3) (k0_pay19 x1) xs7 :=
  (View.read_writes_eq_canon _ _ _ (scover0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

/-- The last point's output block: the final combination of the eight accumulators as this point's stores leave them. -/
theorem oC (hc0 : ¬cond0_0 i) (hc1 : cond0_1 i) (x0 x1 x2 x3 : Vec F S2048x64 .f32) (xs0 xs1 xs2 xs3 xs4 xs5 : Vec F S64x64 .f32) (xs6 xs7 : Vec F S1x64 .f32) :
    out0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7
      = k0_pay2 (k0_pay11 (k0_pay21 x2 x3 xs0) (k0_pay22 x1 x2 xs1) (k0_pay24 xs2 (k0_pay23 x0 x1 x2)) (k0_pay25 (k0_pay14 x2) (k0_pay17 x3) xs3)
          (k0_pay26 (k0_pay17 x3) (k0_pay18 x0) xs4) (k0_pay27 x0 (k0_pay20 x1 x3) xs5) (k0_pay28 (k0_pay16 x2) (k0_pay18 x0) xs6) (k0_pay1 (k0_pay17 x3) (k0_pay19 x1) xs7)) k0_pay12 :=
  (View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)).trans
    (canonC_out c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5 xs6 xs7)

end Cases

variable (m : (ℓ : Loc nD τ sig) → Buf (Elt F) ℓ)

/-- After the first point: the zero fills plus the first block's terms. -/
theorem first_point (c : Dev nD) (h : 0 < cfg0.N) :
    (outsAt0 m c 0 h).2
      = (k0_pay21 (iblk m c 2 ⟨0, h⟩) (iblk m c 3 ⟨0, h⟩) k0_pay3,
        k0_pay22 (iblk m c 1 ⟨0, h⟩) (iblk m c 2 ⟨0, h⟩) k0_pay4,
        k0_pay24 k0_pay5 (k0_pay23 (iblk m c 0 ⟨0, h⟩) (iblk m c 1 ⟨0, h⟩) (iblk m c 2 ⟨0, h⟩)),
        k0_pay25 (k0_pay14 (iblk m c 2 ⟨0, h⟩)) (k0_pay17 (iblk m c 3 ⟨0, h⟩)) k0_pay6,
        k0_pay26 (k0_pay17 (iblk m c 3 ⟨0, h⟩)) (k0_pay18 (iblk m c 0 ⟨0, h⟩)) k0_pay7,
        k0_pay27 (iblk m c 0 ⟨0, h⟩) (k0_pay20 (iblk m c 1 ⟨0, h⟩) (iblk m c 3 ⟨0, h⟩)) k0_pay8,
        k0_pay28 (k0_pay16 (iblk m c 2 ⟨0, h⟩)) (k0_pay18 (iblk m c 0 ⟨0, h⟩)) k0_pay9,
        k0_pay1 (k0_pay17 (iblk m c 3 ⟨0, h⟩)) (k0_pay19 (iblk m c 1 ⟨0, h⟩)) (k0_pay13 k0_pay10)) := by
  rw [show outsAt0 m c 0 h = _ from outsAt0_A m c ⟨0, h⟩ rfl (by dsimp only; omega)]
  simp only [sA0, sA1, sA2, sA3, sA4, sA5, sA6, sA7]

/-- After a later point: what the point before left plus this point's block's terms — whether or not it is the last. -/
theorem next_point (c : Dev nD) (n : ℕ) (h : n + 1 < cfg0.N) :
    (outsAt0 m c (n + 1) h).2
      = (k0_pay21 (iblk m c 2 ⟨n + 1, h⟩) (iblk m c 3 ⟨n + 1, h⟩) (outsAt0 m c n (Nat.lt_of_succ_lt h)).2.1,
        k0_pay22 (iblk m c 1 ⟨n + 1, h⟩) (iblk m c 2 ⟨n + 1, h⟩) (outsAt0 m c n (Nat.lt_of_succ_lt h)).2.2.1,
        k0_pay24 (outsAt0 m c n (Nat.lt_of_succ_lt h)).2.2.2.1 (k0_pay23 (iblk m c 0 ⟨n + 1, h⟩) (iblk m c 1 ⟨n + 1, h⟩) (iblk m c 2 ⟨n + 1, h⟩)),
        k0_pay25 (k0_pay14 (iblk m c 2 ⟨n + 1, h⟩)) (k0_pay17 (iblk m c 3 ⟨n + 1, h⟩)) (outsAt0 m c n (Nat.lt_of_succ_lt h)).2.2.2.2.1,
        k0_pay26 (k0_pay17 (iblk m c 3 ⟨n + 1, h⟩)) (k0_pay18 (iblk m c 0 ⟨n + 1, h⟩)) (outsAt0 m c n (Nat.lt_of_succ_lt h)).2.2.2.2.2.1,
        k0_pay27 (iblk m c 0 ⟨n + 1, h⟩) (k0_pay20 (iblk m c 1 ⟨n + 1, h⟩) (iblk m c 3 ⟨n + 1, h⟩)) (outsAt0 m c n (Nat.lt_of_succ_lt h)).2.2.2.2.2.2.1,
        k0_pay28 (k0_pay16 (iblk m c 2 ⟨n + 1, h⟩)) (k0_pay18 (iblk m c 0 ⟨n + 1, h⟩)) (outsAt0 m c n (Nat.lt_of_succ_lt h)).2.2.2.2.2.2.2.1,
        k0_pay1 (k0_pay17 (iblk m c 3 ⟨n + 1, h⟩)) (k0_pay19 (iblk m c 1 ⟨n + 1, h⟩)) (outsAt0 m c n (Nat.lt_of_succ_lt h)).2.2.2.2.2.2.2.2) := by
  have hN : cfg0.N = 8 := N_0
  have h0 : ¬(⟨n + 1, h⟩ : Fin cfg0.N).val % 8 = 0 := by dsimp only; omega
  by_cases h7 : (⟨n + 1, h⟩ : Fin cfg0.N).val % 8 = 7
  · rw [show outsAt0 m c (n + 1) h = _ from outsAt0_C m c ⟨n + 1, h⟩ h0 h7]
    simp only [sC0, sC1, sC2, sC3, sC4, sC5, sC6, sC7]
    rfl
  · rw [show outsAt0 m c (n + 1) h = _ from outsAt0_B m c ⟨n + 1, h⟩ h0 h7]
    simp only [sB0, sB1, sB2, sB3, sB4, sB5, sB6, sB7]
    rfl

/-- At the last point the output block is the final combination of what that point leaves in the accumulators. -/
theorem last_point (c : Dev nD) (n : ℕ) (h : n + 1 < cfg0.N) (h7 : (n + 1) % 8 = 7) :
    (outsAt0 m c (n + 1) h).1
      = k0_pay2 (k0_pay11 (outsAt0 m c (n + 1) h).2.1
          (outsAt0 m c (n + 1) h).2.2.1
          (outsAt0 m c (n + 1) h).2.2.2.1
          (outsAt0 m c (n + 1) h).2.2.2.2.1
          (outsAt0 m c (n + 1) h).2.2.2.2.2.1
          (outsAt0 m c (n + 1) h).2.2.2.2.2.2.1
          (outsAt0 m c (n + 1) h).2.2.2.2.2.2.2.1
          (outsAt0 m c (n + 1) h).2.2.2.2.2.2.2.2) k0_pay12 := by
  have hN : cfg0.N = 8 := N_0
  have h0 : ¬(⟨n + 1, h⟩ : Fin cfg0.N).val % 8 = 0 := by dsimp only; omega
  rw [show outsAt0 m c (n + 1) h = _ from outsAt0_C m c ⟨n + 1, h⟩ h0 h7]
  simp only [oC, sC0, sC1, sC2, sC3, sC4, sC5, sC6, sC7]

end Cert.KernelIdeal.KT

end
-- ==== Proof.Spec.lean ====
/-
  The two formulas of this certificate, over the real numbers.

  Four arrays of 16384 rows and 64 columns: `g`, `u` (the means of the two families of latent coordinates) and
  `s`, `v` (their scales, positive). For a row `n` and a pair of coordinates `(i, j)` the symmetric Gaussian
  divergence is the half-sum of

    kl1 = log s - log v + (v² + (u - g)²) / (2 s²) - 1/2      and      kl2 = log v - log s + (s² + (u - g)²) / (2 v²) - 1/2,

  with `s = s n i`, `g = g n i`, `v = v n j`, `u = u n j`. One program averages each over the rows, adds, halves and
  averages over the 64 · 64 pairs (`refVal`). The other never forms the logarithms — they cancel in `kl1 + kl2` —
  and expands the squares: six sums over the rows of products of a column of one family by a column of the other,
  two sums of one family alone, combined at the end (`kerVal`). `Proof/Algebra.lean` proves the two equal when the
  scales are positive.
-/
import Mathlib.Analysis.SpecialFunctions.Log.Basic
import Mathlib.Algebra.BigOperators.Fin

noncomputable section

namespace Cert.KLSpec

/-- An array of 16384 rows and 64 columns of reals. -/
abbrev Arr : Type := Fin 16384 → Fin 64 → ℝ

variable (g u s v : Arr)

/-- The first divergence at row `n` and the pair `(i, j)`. -/
def kl1 (n : Fin 16384) (i j : Fin 64) : ℝ :=
  Real.log (s n i) - Real.log (v n j)
    + (v n j * v n j + (u n j - g n i) * (u n j - g n i)) / (2 * (s n i * s n i)) - 1 / 2

/-- The second divergence at row `n` and the pair `(i, j)`. -/
def kl2 (n : Fin 16384) (i j : Fin 64) : ℝ :=
  Real.log (v n j) - Real.log (s n i)
    + (s n i * s n i + (u n j - g n i) * (u n j - g n i)) / (2 * (v n j * v n j)) - 1 / 2

/-- The mean over the pairs of half the sum of the two row means. -/
def refVal : ℝ :=
  (∑ i : Fin 64, ∑ j : Fin 64,
      (1 / 2 : ℝ) * ((∑ n : Fin 16384, kl1 g u s v n i j) / 16384 + (∑ n : Fin 16384, kl2 g u s v n i j) / 16384)) / 4096

/-- `∑ₙ (1/s²)[n,i] · v²[n,j]`. -/
def acc1 (i j : Fin 64) : ℝ := ∑ n : Fin 16384, (1 / (s n i * s n i)) * (v n j * v n j)
/-- `∑ₙ (1/s²)[n,i] · u²[n,j]`. -/
def acc2 (i j : Fin 64) : ℝ := ∑ n : Fin 16384, (1 / (s n i * s n i)) * (u n j * u n j)
/-- `∑ₙ (g/s²)[n,i] · u[n,j]`. -/
def acc3 (i j : Fin 64) : ℝ := ∑ n : Fin 16384, (g n i * (1 / (s n i * s n i))) * u n j
/-- `∑ₙ s²[n,i] · (1/v²)[n,j]`. -/
def accA (i j : Fin 64) : ℝ := ∑ n : Fin 16384, (s n i * s n i) * (1 / (v n j * v n j))
/-- `∑ₙ g²[n,i] · (1/v²)[n,j]`. -/
def accB (i j : Fin 64) : ℝ := ∑ n : Fin 16384, (g n i * g n i) * (1 / (v n j * v n j))
/-- `∑ₙ g[n,i] · (u/v²)[n,j]`. -/
def accC (i j : Fin 64) : ℝ := ∑ n : Fin 16384, g n i * (u n j * (1 / (v n j * v n j)))
/-- `∑ₙ (g²/s²)[n,i]`. -/
def accP (i : Fin 64) : ℝ := ∑ n : Fin 16384, (g n i * g n i) * (1 / (s n i * s n i))
/-- `∑ₙ (u²/v²)[n,j]`. -/
def accQ (j : Fin 64) : ℝ := ∑ n : Fin 16384, (u n j * u n j) * (1 / (v n j * v n j))

/-- The six cross sums combined at the pair `(i, j)`. -/
def raw (i j : Fin 64) : ℝ :=
  acc1 s v i j + acc2 u s i j - 2 * acc3 g u s i j + accA s v i j + accB g v i j - 2 * accC g u v i j

/-- The expanded form: the cross sums over all pairs, the two single sums, their weights, a quarter, minus a half.
    `67108864 = 16384 · 64 · 64`, `1048576 = 16384 · 64`. -/
def kerVal : ℝ :=
  ((∑ i : Fin 64, ∑ j : Fin 64, raw g u s v i j) / 67108864
      + (∑ i : Fin 64, accP g s i) / 1048576 + (∑ j : Fin 64, accQ u v j) / 1048576) / 4 - 1 / 2

end Cert.KLSpec

end
-- ==== Proof.LibRealSums.lean ====
import Mathlib.Data.EReal.Basic
import Mathlib.Data.EReal.Operations
import Mathlib.Data.EReal.Inv
import Idealize.ShloMosaic.PureOps.Ideal

/-!
# Real-valued extended reals and sums

On the extended reals, multiplication does not distribute over addition at the
infinities (`⊤ + ⊥ = ⊥`), so `(∑ a) * w = ∑ (a * w)` is only a law where every value is
the image of a real number. This file carries the predicate "is a real", its closure
under the arithmetic a small network uses, and the distributive law under it.
-/

open scoped BigOperators

namespace Cert.RealVal

/-- An extended real is *real* when it is the image of some real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not `⊤`. -/
theorem IsReal.ne_top {x : EReal} (hx : IsReal x) : x ≠ ⊤ := by
  obtain ⟨r, rfl⟩ := hx; exact EReal.coe_ne_top r

/-- A real extended real is not `⊥`. -/
theorem IsReal.ne_bot {x : EReal} (hx : IsReal x) : x ≠ ⊥ := by
  obtain ⟨r, rfl⟩ := hx; exact EReal.coe_ne_bot r

/-- Being real is exactly being neither infinity. -/
theorem isReal_iff {x : EReal} : IsReal x ↔ x ≠ ⊥ ∧ x ≠ ⊤ := by
  constructor
  · intro h; exact ⟨h.ne_bot, h.ne_top⟩
  · rintro ⟨hb, ht⟩
    exact ⟨x.toReal, (EReal.coe_toReal ht hb).symm⟩

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The maximum of two reals is real. -/
theorem IsReal.max {x y : EReal} (hx : IsReal x) (hy : IsReal y) : IsReal (max x y) := by
  rcases max_choice x y with h | h <;> rw [h] <;> assumption

/-- The negation of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The minimum of two reals is real. -/
theorem IsReal.min {x y : EReal} (hx : IsReal x) (hy : IsReal y) : IsReal (min x y) := by
  rcases min_choice x y with h | h <;> rw [h] <;> assumption

/-- The coercion `ℝ → EReal` commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih (fun i hi => h i (Finset.mem_insert_of_mem hi)))

/-- Right-multiplication distributes over a finite sum of reals. -/
theorem sum_mul_of_isReal {ι : Type*} (s : Finset ι) (f : ι → EReal) (c : EReal)
    (hf : ∀ i ∈ s, IsReal (f i)) (hc : IsReal c) :
    (∑ i ∈ s, f i) * c = ∑ i ∈ s, f i * c := by
  classical
  obtain ⟨c', rfl⟩ := hc
  induction s using Finset.induction_on with
  | empty => simp
  | insert a s ha ih =>
    have hs : ∀ i ∈ s, IsReal (f i) := fun i hi => hf i (Finset.mem_insert_of_mem hi)
    obtain ⟨x, hx⟩ := hf a (Finset.mem_insert_self a s)
    obtain ⟨y, hy⟩ := IsReal.sum s f hs
    rw [Finset.sum_insert ha, Finset.sum_insert ha, ← ih hs, hx, hy]
    rw [← EReal.coe_add, ← EReal.coe_mul, ← EReal.coe_mul, ← EReal.coe_mul, ← EReal.coe_add,
      add_mul]

/-- Left-multiplication distributes over a finite sum of reals. -/
theorem mul_sum_of_isReal {ι : Type*} (s : Finset ι) (f : ι → EReal) (c : EReal)
    (hf : ∀ i ∈ s, IsReal (f i)) (hc : IsReal c) :
    c * (∑ i ∈ s, f i) = ∑ i ∈ s, c * f i := by
  rw [mul_comm, sum_mul_of_isReal s f c hf hc]
  exact Finset.sum_congr rfl (fun i _ => mul_comm _ _)

/-- THE LAW. Scaling a sum over edges of row-times-weights products equals the
    row-times-weights product of the scaled edge sums, when every value is real:
    `(∑ₑ ∑ₖ h e k * w k) * d = ∑ₖ ((∑ₑ h e k) * d) * w k`. -/
theorem sum_scale_mul {ι κ : Type*} [Fintype κ] (S : Finset ι) (h : ι → κ → EReal)
    (w : κ → EReal) (d : EReal)
    (hh : ∀ e k, IsReal (h e k)) (hw : ∀ k, IsReal (w k)) (hd : IsReal d) :
    (∑ e ∈ S, ∑ k, h e k * w k) * d = ∑ k, ((∑ e ∈ S, h e k) * d) * w k := by
  choose hr hhr using hh
  choose wr hwr using hw
  obtain ⟨dr, rfl⟩ := hd
  have hL : (∑ e ∈ S, ∑ k, h e k * w k) * (dr : EReal)
      = (((∑ e ∈ S, ∑ k, hr e k * wr k) * dr : ℝ) : EReal) := by
    rw [EReal.coe_mul, ← coe_sum]
    congr 1
    refine Finset.sum_congr rfl (fun e _ => ?_)
    rw [← coe_sum]
    refine Finset.sum_congr rfl (fun k _ => ?_)
    rw [hhr, hwr, EReal.coe_mul]
  have hR : (∑ k, ((∑ e ∈ S, h e k) * (dr : EReal)) * w k)
      = ((∑ k, ((∑ e ∈ S, hr e k) * dr) * wr k : ℝ) : EReal) := by
    rw [← coe_sum]
    refine Finset.sum_congr rfl (fun k _ => ?_)
    rw [EReal.coe_mul, EReal.coe_mul, ← coe_sum, hwr]
    congr 2
    exact Finset.sum_congr rfl (fun e _ => hhr e k)
  rw [hL, hR]
  congr 1
  rw [Finset.sum_comm, Finset.sum_mul]
  refine Finset.sum_congr rfl (fun k _ => ?_)
  rw [← Finset.sum_mul]
  ring

/-- The coercion `ℝ → EReal` commutes with `max`. -/
theorem coe_max (a b : ℝ) : ((max a b : ℝ) : EReal) = max (a : EReal) (b : EReal) :=
  EReal.coe_strictMono.monotone.map_max

/-- The reciprocal `1 / max x 1` of a real `x` is real: `max x 1` is a real `≥ 1`, so nonzero. -/
theorem isReal_recip_max_one {x : EReal} (hx : IsReal x) :
    IsReal (Idealize.ShloMosaic.Ideal.div 1 (max x 1)) := by
  obtain ⟨r, rfl⟩ := hx
  have hm : max (r : EReal) 1 = ((max r 1 : ℝ) : EReal) := by
    rw [← EReal.coe_one, ← coe_max]
  have hne : (max r 1 : ℝ) ≠ 0 := by
    have : (1 : ℝ) ≤ max r 1 := le_max_right r 1
    linarith
  rw [hm, Idealize.ShloMosaic.Ideal.div_coe hne, one_mul]
  exact isReal_coe _

/-- The same reciprocal, computed: `1 / max r 1` at a real `r` is the image of the real
    `1 / max r 1`. -/
theorem recip_max_one_coe (r : ℝ) :
    Idealize.ShloMosaic.Ideal.div 1 (max (r : EReal) 1) = ((1 / max r 1 : ℝ) : EReal) := by
  have hm : max (r : EReal) 1 = ((max r 1 : ℝ) : EReal) := by
    rw [← EReal.coe_one, ← coe_max]
  have hne : (max r 1 : ℝ) ≠ 0 := by
    have : (1 : ℝ) ≤ max r 1 := le_max_right r 1
    linarith
  rw [hm, Idealize.ShloMosaic.Ideal.div_coe hne, one_mul]

/-- The `f32` pattern `0x3F800000` denotes the real number one. -/
theorem ofBits_one_f32 : Idealize.ShloMosaic.Ideal.ofBits .f32 0x3F800000#32 = (1 : EReal) := by
  simp [Idealize.ShloMosaic.Ideal.ofBits, Idealize.ShloMosaic.Ideal.ieee, -EReal.coe_mul]; norm_num

end Cert.RealVal
-- ==== Proof.KerBlock.lean ====
/-
  One pass of the body over a block of 2048 rows, read entry by entry at the extended reals, when the four loaded
  blocks hold real numbers: the means `X0` and scales `X2` of the first family, the means `X1` and scales `X3` of
  the second, the scales positive.

  The body forms, entry by entry, the squares of the four blocks, the reciprocals `1 / X2²` and `1 / X3²` (a real
  number, since a positive scale has a nonzero square) and the products `X0 · (1 / X2²)`, `X1 · (1 / X3²)`. Six
  accumulators of 64 × 64 entries each receive, at `(a, b)`, the sum over the block's rows of a column `a` of one
  family's block times a column `b` of the other's (a contraction over the row axis into a zero start value, then an
  addition); two accumulators of 1 × 64 entries receive the sum over the rows of a product within one family (a
  reduction over the row axis, re-read as a row, then an addition). Every entry involved is the image of a real
  number, so each sum of products of extended reals is the image of the real sum of real products.
-/
import proofs.«105850_j61564061221261_1_alg».proof.Proof.Gen.KernelIdeal.Skeleton
import proofs.«105850_j61564061221261_1_alg».proof.Proof.LibRealSums
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KB

open Idealize.ShloMosaic Idealize.ShloMosaic.ValueIdx Cert.KernelIdeal Cert.KernelIdeal.Gen

variable [Cert.KernelIdeal.Facts₀]

/-- The body's contraction over the rows of a block: entry (a, b) of the product of the transposed left block by the
    right block is the sum over the block's rows of the products of the two columns' entries. -/
theorem rows_contraction (L R : FVec Ideal S2048x64 .f32) (a b : Fin 64) :
    matmul dot_S2048x64_S2048x64_S64x64_0_0_1_1_n_n (some .fp32) L R (constant S64x64 .f32 0x00000000#32) (ix2 a b)
      = ∑ r : Fin 2048, L (ix2 r a) * R (ix2 r b) := by
  show FloatOps.matmul _ _ L R _ (ix2 a b) = _
  rw [Ideal.matmul_constant_zero_apply,
    ← Equiv.sum_comp (contrEquiv1 dot_S2048x64_S2048x64_S64x64_0_0_1_1_n_n 2048 rfl rfl).symm]
  refine Finset.sum_congr rfl fun r _ => ?_
  have c2 := contrEquiv1_symm_val dot_S2048x64_S2048x64_S64x64_0_0_1_1_n_n 2048 rfl rfl r
  have l2 : dot_S2048x64_S2048x64_S64x64_0_0_1_1_n_n.lhsIdx (ix2 a b)
      ((contrEquiv1 dot_S2048x64_S2048x64_S64x64_0_0_1_1_n_n 2048 rfl rfl).symm r) = ix2 r a := by
    funext ax; apply Fin.ext
    match ax with
    | ⟨0, _⟩ => simp [DotDims.lhsIdx, dot_S2048x64_S2048x64_S64x64_0_0_1_1_n_n]; exact c2
    | ⟨1, _⟩ => simp [DotDims.lhsIdx, dot_S2048x64_S2048x64_S64x64_0_0_1_1_n_n]; rfl
  have r2 : dot_S2048x64_S2048x64_S64x64_0_0_1_1_n_n.rhsIdx (ix2 a b)
      ((contrEquiv1 dot_S2048x64_S2048x64_S64x64_0_0_1_1_n_n 2048 rfl rfl).symm r) = ix2 r b := by
    funext ax; apply Fin.ext
    match ax with
    | ⟨0, _⟩ => simp [DotDims.rhsIdx, dot_S2048x64_S2048x64_S64x64_0_0_1_1_n_n]; exact c2
    | ⟨1, _⟩ => simp [DotDims.rhsIdx, dot_S2048x64_S2048x64_S64x64_0_0_1_1_n_n]; rfl
  rw [l2, r2]

/-- The sum over the rows of a block, read at a column: the row-axis reduction into a zero accumulator. -/
theorem rows_reduction (src : FVec Ideal S2048x64 .f32) (h : S2048x64.Reduces [0] S64) (hφ : FKind.Formats .f32)
    (hacc : (0x00000000#32 : BitVec 32) = 0x00000000#32) (b : Fin 64) :
    multiReduction (F := Ideal) .add [0] S64 src 0x00000000#32 h hφ hacc (ix1 b) = ∑ r : Fin 2048, src (ix2 r b) := by
  refine (Ideal.multiReduction_add_single src 0x00000000#32 h hφ hacc (ix1 b)).trans ?_
  refine Finset.sum_congr rfl fun r _ => ?_
  congr 1
  funext c
  apply Fin.ext
  match c with
  | ⟨0, _⟩ => rfl
  | ⟨1, _⟩ => rfl

section Blocks

variable (x : Vec Ideal S2048x64 .f32) (X : Fin 2048 → Fin 64 → ℝ)
  (hx : ∀ r a, x (ix2 r a) = ((X r a : ℝ) : EReal))

include hx in
/-- A block of reals squared entry by entry holds the squares. -/
theorem sq_at (r : Fin 2048) (a : Fin 64) : mulf (F := Ideal) (φ := .f32) x x (ix2 r a) = ((X r a * X r a : ℝ) : EReal) := by
  show x (ix2 r a) * x (ix2 r a) = _
  rw [hx, EReal.coe_mul]

include hx in
/-- One over the square of a block of positive reals holds the reciprocals of the squares. -/
theorem inv_sq_at (p : ∀ r a, 0 < X r a) (r : Fin 2048) (a : Fin 64) :
    divf (F := Ideal) (φ := .f32) (broadcast S2048x64 (Scalar.ofBits (F := Ideal) .f32 0x3F800000#32))
        (mulf (F := Ideal) (φ := .f32) x x) (ix2 r a)
      = ((1 / (X r a * X r a) : ℝ) : EReal) := by
  show Ideal.div (Ideal.ofBits .f32 0x3F800000#32) (mulf (F := Ideal) (φ := .f32) x x (ix2 r a)) = _
  rw [sq_at x X hx r a, Cert.RealVal.ofBits_one_f32,
    Ideal.div_coe (mul_ne_zero (ne_of_gt (p r a)) (ne_of_gt (p r a))), one_mul]

end Blocks

section Operands

variable (x : Vec Ideal S2048x64 .f32) (X : Fin 2048 → Fin 64 → ℝ)
  (hx : ∀ r a, x (ix2 r a) = ((X r a : ℝ) : EReal))

include hx in
/-- The squared scales of the first family at an entry. -/
theorem pay14_at (r : Fin 2048) (a : Fin 64) : k0_pay14 x (ix2 r a) = ((X r a * X r a : ℝ) : EReal) := by
  unfold k0_pay14; exact sq_at x X hx r a

include hx in
/-- The squared scales of the second family at an entry. -/
theorem pay15_at (r : Fin 2048) (a : Fin 64) : k0_pay15 x (ix2 r a) = ((X r a * X r a : ℝ) : EReal) := by
  unfold k0_pay15; exact sq_at x X hx r a

include hx in
/-- The squared means of the first family at an entry. -/
theorem pay18_at (r : Fin 2048) (a : Fin 64) : k0_pay18 x (ix2 r a) = ((X r a * X r a : ℝ) : EReal) := by
  unfold k0_pay18; exact sq_at x X hx r a

include hx in
/-- The squared means of the second family at an entry. -/
theorem pay19_at (r : Fin 2048) (a : Fin 64) : k0_pay19 x (ix2 r a) = ((X r a * X r a : ℝ) : EReal) := by
  unfold k0_pay19; exact sq_at x X hx r a

include hx in
/-- The reciprocal squared scales of the first family at an entry. -/
theorem pay16_at (p : ∀ r a, 0 < X r a) (r : Fin 2048) (a : Fin 64) :
    k0_pay16 x (ix2 r a) = ((1 / (X r a * X r a) : ℝ) : EReal) := by
  unfold k0_pay16 k0_pay14; exact inv_sq_at x X hx p r a

include hx in
/-- The reciprocal squared scales of the second family at an entry. -/
theorem pay17_at (p : ∀ r a, 0 < X r a) (r : Fin 2048) (a : Fin 64) :
    k0_pay17 x (ix2 r a) = ((1 / (X r a * X r a) : ℝ) : EReal) := by
  unfold k0_pay17 k0_pay15; exact inv_sq_at x X hx p r a

end Operands

/-- The means of the second family over its squared scales, at an entry. -/
theorem pay20_at (X1 X3 : Fin 2048 → Fin 64 → ℝ) (x1 x3 : Vec Ideal S2048x64 .f32)
    (h1 : ∀ r a, x1 (ix2 r a) = ((X1 r a : ℝ) : EReal)) (h3 : ∀ r a, x3 (ix2 r a) = ((X3 r a : ℝ) : EReal))
    (p3 : ∀ r a, 0 < X3 r a) (r : Fin 2048) (b : Fin 64) :
    k0_pay20 x1 x3 (ix2 r b) = ((X1 r b * (1 / (X3 r b * X3 r b)) : ℝ) : EReal) := by
  unfold k0_pay20
  show x1 (ix2 r b) * k0_pay17 x3 (ix2 r b) = _
  rw [h1, pay17_at x3 X3 h3 p3 r b, EReal.coe_mul]

/-- An accumulator plus the contraction over the rows of two blocks whose entries' products are real. -/
theorem acc_contraction (L R : FVec Ideal S2048x64 .f32) (acc : Vec Ideal S64x64 .f32) (f : Fin 2048 → ℝ)
    (hc : S64x64.ShapeCasts S64x64) (a b : Fin 64)
    (hf : ∀ r, L (ix2 r a) * R (ix2 r b) = ((f r : ℝ) : EReal)) :
    shapeCast S64x64 (addf (F := Ideal) (φ := .f32) acc
        (matmul dot_S2048x64_S2048x64_S64x64_0_0_1_1_n_n (some .fp32) L R (constant (F := Ideal) S64x64 .f32 0x00000000#32))) hc (ix2 a b)
      = acc (ix2 a b) + ((∑ r : Fin 2048, f r : ℝ) : EReal) := by
  rw [shapeCast_self]
  show acc (ix2 a b) + matmul dot_S2048x64_S2048x64_S64x64_0_0_1_1_n_n (some .fp32) L R (constant (F := Ideal) S64x64 .f32 0x00000000#32) (ix2 a b) = _
  rw [rows_contraction L R a b, ← Cert.RealVal.coe_sum]
  exact congrArg _ (Finset.sum_congr rfl fun r _ => hf r)

/-- An accumulator row plus the sums over the rows of a block of real entries. -/
theorem acc_reduction (src : FVec Ideal S2048x64 .f32) (acc : Vec Ideal S1x64 .f32) (f : Fin 2048 → ℝ)
    (h : S2048x64.Reduces [0] S64) (hφ : FKind.Formats .f32) (hacc : (0x00000000#32 : BitVec 32) = 0x00000000#32)
    (hc : S64.ShapeCasts S1x64) (hc' : S1x64.ShapeCasts S1x64) (b : Fin 64)
    (hf : ∀ r, src (ix2 r b) = ((f r : ℝ) : EReal)) :
    shapeCast S1x64 (addf (F := Ideal) (φ := .f32) acc
        (shapeCast S1x64 (multiReduction (F := Ideal) .add [0] S64 src 0x00000000#32 h hφ hacc) hc)) hc' (ix2 (0 : Fin 1) b)
      = acc (ix2 (0 : Fin 1) b) + ((∑ r : Fin 2048, f r : ℝ) : EReal) := by
  rw [shapeCast_self]
  show acc (ix2 (0 : Fin 1) b)
      + shapeCast S1x64 (multiReduction (F := Ideal) .add [0] S64 src 0x00000000#32 h hφ hacc) hc (ix2 (0 : Fin 1) b) = _
  rw [shapeCast_a_1a_apply, rows_reduction src h hφ hacc b, ← Cert.RealVal.coe_sum]
  exact congrArg _ (Finset.sum_congr rfl fun r _ => hf r)

section Steps

variable (X0 X1 X2 X3 : Fin 2048 → Fin 64 → ℝ) (x0 x1 x2 x3 : Vec Ideal S2048x64 .f32)
  (h0 : ∀ r a, x0 (ix2 r a) = ((X0 r a : ℝ) : EReal)) (h1 : ∀ r a, x1 (ix2 r a) = ((X1 r a : ℝ) : EReal))
  (h2 : ∀ r a, x2 (ix2 r a) = ((X2 r a : ℝ) : EReal)) (h3 : ∀ r a, x3 (ix2 r a) = ((X3 r a : ℝ) : EReal))
  (p2 : ∀ r a, 0 < X2 r a) (p3 : ∀ r a, 0 < X3 r a)

include h2 h3 p2 in
/-- First cross sum: reciprocal squared scales of the first family against squared scales of the second. -/
theorem step0 (acc : Vec Ideal S64x64 .f32) (a b : Fin 64) :
    k0_pay21 x2 x3 acc (ix2 a b)
      = acc (ix2 a b) + ((∑ r : Fin 2048, (1 / (X2 r a * X2 r a)) * (X3 r b * X3 r b) : ℝ) : EReal) := by
  unfold k0_pay21
  exact acc_contraction _ _ acc _ _ a b fun r => by
    rw [pay16_at x2 X2 h2 p2 r a, pay15_at x3 X3 h3 r b]; simp only [EReal.coe_mul]

include h1 h2 p2 in
/-- Second cross sum: reciprocal squared scales of the first family against squared means of the second. -/
theorem step1 (acc : Vec Ideal S64x64 .f32) (a b : Fin 64) :
    k0_pay22 x1 x2 acc (ix2 a b)
      = acc (ix2 a b) + ((∑ r : Fin 2048, (1 / (X2 r a * X2 r a)) * (X1 r b * X1 r b) : ℝ) : EReal) := by
  unfold k0_pay22
  exact acc_contraction _ _ acc _ _ a b fun r => by
    rw [pay16_at x2 X2 h2 p2 r a, pay19_at x1 X1 h1 r b]; simp only [EReal.coe_mul]

include h0 h1 h2 p2 in
/-- Third cross sum: means of the first family over its squared scales against means of the second. -/
theorem step2 (acc : Vec Ideal S64x64 .f32) (a b : Fin 64) :
    k0_pay24 acc (k0_pay23 x0 x1 x2) (ix2 a b)
      = acc (ix2 a b) + ((∑ r : Fin 2048, (X0 r a * (1 / (X2 r a * X2 r a))) * X1 r b : ℝ) : EReal) := by
  unfold k0_pay24 k0_pay23
  exact acc_contraction _ _ acc _ _ a b fun r => by
    show (x0 (ix2 r a) * k0_pay16 x2 (ix2 r a)) * x1 (ix2 r b) = _
    rw [h0, pay16_at x2 X2 h2 p2 r a, h1, EReal.coe_mul, EReal.coe_mul]

include h2 h3 p3 in
/-- Fourth cross sum: squared scales of the first family against reciprocal squared scales of the second. -/
theorem step3 (acc : Vec Ideal S64x64 .f32) (a b : Fin 64) :
    k0_pay25 (k0_pay14 x2) (k0_pay17 x3) acc (ix2 a b)
      = acc (ix2 a b) + ((∑ r : Fin 2048, (X2 r a * X2 r a) * (1 / (X3 r b * X3 r b)) : ℝ) : EReal) := by
  unfold k0_pay25
  exact acc_contraction _ _ acc _ _ a b fun r => by
    rw [pay14_at x2 X2 h2 r a, pay17_at x3 X3 h3 p3 r b]; simp only [EReal.coe_mul]

include h0 h3 p3 in
/-- Fifth cross sum: squared means of the first family against reciprocal squared scales of the second. -/
theorem step4 (acc : Vec Ideal S64x64 .f32) (a b : Fin 64) :
    k0_pay26 (k0_pay17 x3) (k0_pay18 x0) acc (ix2 a b)
      = acc (ix2 a b) + ((∑ r : Fin 2048, (X0 r a * X0 r a) * (1 / (X3 r b * X3 r b)) : ℝ) : EReal) := by
  unfold k0_pay26
  exact acc_contraction _ _ acc _ _ a b fun r => by
    rw [pay18_at x0 X0 h0 r a, pay17_at x3 X3 h3 p3 r b]; simp only [EReal.coe_mul]

include h0 h1 h3 p3 in
/-- Sixth cross sum: means of the first family against means of the second over its squared scales. -/
theorem step5 (acc : Vec Ideal S64x64 .f32) (a b : Fin 64) :
    k0_pay27 x0 (k0_pay20 x1 x3) acc (ix2 a b)
      = acc (ix2 a b) + ((∑ r : Fin 2048, X0 r a * (X1 r b * (1 / (X3 r b * X3 r b))) : ℝ) : EReal) := by
  unfold k0_pay27
  exact acc_contraction _ _ acc _ _ a b fun r => by
    rw [h0, pay20_at X1 X3 x1 x3 h1 h3 p3 r b]; simp only [EReal.coe_mul]

include h0 h2 p2 in
/-- First single sum: squared means of the first family over its squared scales. -/
theorem step6 (acc : Vec Ideal S1x64 .f32) (a : Fin 64) :
    k0_pay28 (k0_pay16 x2) (k0_pay18 x0) acc (ix2 (0 : Fin 1) a)
      = acc (ix2 (0 : Fin 1) a) + ((∑ r : Fin 2048, (X0 r a * X0 r a) * (1 / (X2 r a * X2 r a)) : ℝ) : EReal) := by
  unfold k0_pay28
  exact acc_reduction _ acc _ _ _ _ _ _ a fun r => by
    show k0_pay18 x0 (ix2 r a) * k0_pay16 x2 (ix2 r a) = _
    rw [pay18_at x0 X0 h0 r a, pay16_at x2 X2 h2 p2 r a]; simp only [EReal.coe_mul]

include h1 h3 p3 in
/-- Second single sum: squared means of the second family over its squared scales. -/
theorem step7 (acc : Vec Ideal S1x64 .f32) (b : Fin 64) :
    k0_pay1 (k0_pay17 x3) (k0_pay19 x1) acc (ix2 (0 : Fin 1) b)
      = acc (ix2 (0 : Fin 1) b) + ((∑ r : Fin 2048, (X1 r b * X1 r b) * (1 / (X3 r b * X3 r b)) : ℝ) : EReal) := by
  unfold k0_pay1
  exact acc_reduction _ acc _ _ _ _ _ _ b fun r => by
    show k0_pay19 x1 (ix2 r b) * k0_pay17 x3 (ix2 r b) = _
    rw [pay19_at x1 X1 h1 r b, pay17_at x3 X3 h3 p3 r b]; simp only [EReal.coe_mul]

end Steps

end Cert.KernelIdeal.KB

end
-- ==== Proof.KerFinal.lean ====
/-
  The value the kernel stores at its last grid point, read at extended reals when the eight
  accumulators hold real numbers, and the zero fills of the first grid point.

  The last point combines the six square accumulators entry by entry,
  x0 + x1 - 2 x2 + x3 + x4 - 2 x5, sums the result over the columns and then over the rows, sums each
  of the two row accumulators over its entries, divides the three totals by 2^26, 2^20 and 2^20, adds
  them, divides by 4 and subtracts 1/2. On real entries every step stays in the reals: a sum over one
  axis is a finite sum, the casts between [64] and [64,1] and between [1] and [1,1] only rename the
  index, and a quotient by a nonzero real constant is the product with its reciprocal.
-/
import proofs.«105850_j61564061221261_1_alg».proof.Proof.Gen.KernelIdeal.Skeleton
import proofs.«105850_j61564061221261_1_alg».proof.Proof.LibRealSums
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KF

open Idealize.ShloMosaic Idealize.ShloMosaic.ValueIdx Cert.KernelIdeal Cert.KernelIdeal.Gen
open scoped BigOperators

variable [Cert.KernelIdeal.Facts₀]

/-! ## The float literals the payloads carry, as reals -/

/-- The f32 pattern 0x40000000 denotes 2. -/
theorem two_eq : Ideal.ofBits .f32 0x40000000#32 = ((2 : ℝ) : EReal) := by
  simp [Ideal.ofBits, Ideal.ieee, -EReal.coe_mul]; norm_num

/-- The f32 pattern 0x4C800000 denotes 2^26 = 67108864. -/
theorem big26_eq : Ideal.ofBits .f32 0x4C800000#32 = ((67108864 : ℝ) : EReal) := by
  simp [Ideal.ofBits, Ideal.ieee, -EReal.coe_mul]; norm_num

/-- The f32 pattern 0x49800000 denotes 2^20 = 1048576. -/
theorem big20_eq : Ideal.ofBits .f32 0x49800000#32 = ((1048576 : ℝ) : EReal) := by
  simp [Ideal.ofBits, Ideal.ieee, -EReal.coe_mul]; norm_num

/-- The f32 pattern 0x40800000 denotes 4. -/
theorem four_eq : Ideal.ofBits .f32 0x40800000#32 = ((4 : ℝ) : EReal) := by
  simp [Ideal.ofBits, Ideal.ieee, -EReal.coe_mul]; norm_num

/-- The f32 pattern 0x3F000000 denotes 1/2. -/
theorem half_eq : Ideal.ofBits .f32 0x3F000000#32 = ((1 / 2 : ℝ) : EReal) := by
  simp [Ideal.ofBits, Ideal.ieee, -EReal.coe_mul]; norm_num

/-! ## The zero fills of the first grid point -/

theorem zero3 (a b : Fin 64) : k0_pay3 (F := Ideal) (ix2 a b) = 0 := by
  unfold k0_pay3; rw [shapeCast_self]; exact Ideal.ofBits_zero_f32

theorem zero4 (a b : Fin 64) : k0_pay4 (F := Ideal) (ix2 a b) = 0 := by
  unfold k0_pay4; rw [shapeCast_self]; exact Ideal.ofBits_zero_f32

theorem zero5 (a b : Fin 64) : k0_pay5 (F := Ideal) (ix2 a b) = 0 := by
  unfold k0_pay5; rw [shapeCast_self]; exact Ideal.ofBits_zero_f32

theorem zero6 (a b : Fin 64) : k0_pay6 (F := Ideal) (ix2 a b) = 0 := by
  unfold k0_pay6; rw [shapeCast_self]; exact Ideal.ofBits_zero_f32

theorem zero7 (a b : Fin 64) : k0_pay7 (F := Ideal) (ix2 a b) = 0 := by
  unfold k0_pay7; rw [shapeCast_self]; exact Ideal.ofBits_zero_f32

theorem zero8 (a b : Fin 64) : k0_pay8 (F := Ideal) (ix2 a b) = 0 := by
  unfold k0_pay8; rw [shapeCast_self]; exact Ideal.ofBits_zero_f32

theorem zero9 (a : Fin 64) : k0_pay9 (F := Ideal) (ix2 (0 : Fin 1) a) = 0 := by
  unfold k0_pay9; rw [shapeCast_self]; exact Ideal.ofBits_zero_f32

theorem zero13 (a : Fin 64) : k0_pay13 (k0_pay10 (F := Ideal)) (ix2 (0 : Fin 1) a) = 0 := by
  unfold k0_pay13 k0_pay10; rw [shapeCast_self]; exact Ideal.ofBits_zero_f32

/-! ## The sums over one axis and the casts, read at an index -/

/-- The sum over axis 1 of a [64,64] array, at row a: the sum over the columns. -/
theorem sumAxis1_64x64 (src : FVec Ideal S64x64 .f32) (h : S64x64.Reduces [1] S64) (hφ : FKind.Formats .f32)
    (hacc : (0x00000000#32 : BitVec 32) = 0x00000000#32) (a : Fin 64) :
    multiReduction (F := Ideal) .add [1] S64 src 0x00000000#32 h hφ hacc (ix1 a) = ∑ b : Fin 64, src (ix2 a b) := by
  refine (Ideal.multiReduction_add_single src 0x00000000#32 h hφ hacc (ix1 a)).trans ?_
  refine Finset.sum_congr rfl (fun k _ => congrArg src ?_)
  funext c
  apply Fin.ext
  match c with
  | ⟨0, _⟩ => rfl
  | ⟨1, _⟩ => rfl

/-- The sum over axis 0 of a [64,1] array: the sum over the rows. -/
theorem sumAxis0_64x1 (src : FVec Ideal S64x1 .f32) (h : S64x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ a : Fin 64, src (ix2 a u) := by
  refine (Ideal.multiReduction_add_single src 0x00000000#32 h hφ hacc (ix1 u)).trans ?_
  refine Finset.sum_congr rfl (fun k _ => congrArg src ?_)
  funext c
  apply Fin.ext
  match c with
  | ⟨0, _⟩ => rfl
  | ⟨1, _⟩ => rfl

/-- The sum over axis 1 of a [1,64] row: the sum over its entries. -/
theorem sumAxis1_1x64 (src : FVec Ideal S1x64 .f32) (h : S1x64.Reduces [1] S1) (hφ : FKind.Formats .f32)
    (hacc : (0x00000000#32 : BitVec 32) = 0x00000000#32) (u : Fin 1) :
    multiReduction (F := Ideal) .add [1] S1 src 0x00000000#32 h hφ hacc (ix1 u) = ∑ b : Fin 64, src (ix2 u b) := by
  refine (Ideal.multiReduction_add_single src 0x00000000#32 h hφ hacc (ix1 u)).trans ?_
  refine Finset.sum_congr rfl (fun k _ => congrArg src ?_)
  funext c
  apply Fin.ext
  match c with
  | ⟨0, _⟩ => rfl
  | ⟨1, _⟩ => rfl

/-- A [64] array cast to a [64,1] column reads, at (a, u), the operand at a. -/
theorem cast_64_64x1 (x : FVec Ideal S64 .f32) (h : S64.ShapeCasts S64x1) (a : Fin 64) (u : Fin 1) :
    shapeCast S64x1 x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-! ## The last grid point's value in named pieces -/

/-- The combination of the six square accumulators formed before summing:
    x0 + x1 - 2 x2 + x3 + x4 - 2 x5, entry by entry. -/
def raw (x0 x1 x2 x3 x4 x5 : FVec Ideal S64x64 .f32) : FVec Ideal S64x64 .f32 :=
  subf (addf (addf (subf (addf x0 x1) (mulf (broadcast S64x64 (Scalar.ofBits (F := Ideal) .f32 0x40000000#32)) x2)) x3) x4)
    (mulf (broadcast S64x64 (Scalar.ofBits (F := Ideal) .f32 0x40000000#32)) x5)

/-- The total of a [64,64] array as the kernel takes it: over axis 1, as a column, over axis 0, as [1,1]. -/
def total (x : FVec Ideal S64x64 .f32) : FVec Ideal S1x1 .f32 :=
  shapeCast S1x1
    (multiReduction (F := Ideal) .add [0] S1
      (shapeCast S64x1 (multiReduction (F := Ideal) .add [1] S64 x 0x00000000#32 Facts₀.reduces_S64x64_S64 (.inl rfl) rfl)
        Facts₀.shapeCasts_S64_S64x1)
      0x00000000#32 Facts₀.reduces_S64x1_S1 (.inl rfl) rfl)
    Facts₀.shapeCasts_S1_S1x1

/-- The total of a [1,64] row as the kernel takes it: over axis 1, as [1,1]. -/
def rowTotal (x : FVec Ideal S1x64 .f32) : FVec Ideal S1x1 .f32 :=
  shapeCast S1x1 (multiReduction (F := Ideal) .add [1] S1 x 0x00000000#32 Facts₀.reduces_S1x64_S1 (.inl rfl) rfl)
    Facts₀.shapeCasts_S1_S1x1

/-- The combination at an entry, when the six accumulators hold reals there. -/
theorem raw_apply (x0 x1 x2 x3 x4 x5 : FVec Ideal S64x64 .f32) (X0 X1 X2 X3 X4 X5 : Fin 64 → Fin 64 → ℝ)
    (e0 : ∀ a b, x0 (ix2 a b) = ((X0 a b : ℝ) : EReal)) (e1 : ∀ a b, x1 (ix2 a b) = ((X1 a b : ℝ) : EReal))
    (e2 : ∀ a b, x2 (ix2 a b) = ((X2 a b : ℝ) : EReal)) (e3 : ∀ a b, x3 (ix2 a b) = ((X3 a b : ℝ) : EReal))
    (e4 : ∀ a b, x4 (ix2 a b) = ((X4 a b : ℝ) : EReal)) (e5 : ∀ a b, x5 (ix2 a b) = ((X5 a b : ℝ) : EReal))
    (a b : Fin 64) :
    raw x0 x1 x2 x3 x4 x5 (ix2 a b)
      = ((X0 a b + X1 a b - 2 * X2 a b + X3 a b + X4 a b - 2 * X5 a b : ℝ) : EReal) := by
  show x0 (ix2 a b) + x1 (ix2 a b) - Ideal.ofBits .f32 0x40000000#32 * x2 (ix2 a b) + x3 (ix2 a b) + x4 (ix2 a b)
      - Ideal.ofBits .f32 0x40000000#32 * x5 (ix2 a b) = _
  rw [e0, e1, e2, e3, e4, e5, two_eq]
  simp only [← EReal.coe_mul, ← EReal.coe_add, ← EReal.coe_sub]

/-- The total of a [64,64] array of reals is the double sum of them. -/
theorem total_apply (x : FVec Ideal S64x64 .f32) (X : Fin 64 → Fin 64 → ℝ)
    (hx : ∀ a b, x (ix2 a b) = ((X a b : ℝ) : EReal)) (p q : Fin 1) :
    total x (ix2 p q) = ((∑ a : Fin 64, ∑ b : Fin 64, X a b : ℝ) : EReal) := by
  unfold total
  refine (shapeCast_a_1a_apply _ _ p q).trans ?_
  refine (sumAxis0_64x1 _ _ _ _ q).trans ?_
  refine Eq.trans ?_ (Cert.RealVal.coe_sum Finset.univ (fun a => ∑ b : Fin 64, X a b))
  refine Finset.sum_congr rfl (fun a _ => ?_)
  refine (cast_64_64x1 _ _ a q).trans ?_
  refine (sumAxis1_64x64 _ _ _ _ a).trans ?_
  refine Eq.trans ?_ (Cert.RealVal.coe_sum Finset.univ (fun b => X a b))
  exact Finset.sum_congr rfl (fun b _ => hx a b)

/-- The total of a [1,64] row of reals is the sum of them. -/
theorem rowTotal_apply (x : FVec Ideal S1x64 .f32) (X : Fin 64 → ℝ)
    (hx : ∀ b, x (ix2 (0 : Fin 1) b) = ((X b : ℝ) : EReal)) (p q : Fin 1) :
    rowTotal x (ix2 p q) = ((∑ b : Fin 64, X b : ℝ) : EReal) := by
  unfold rowTotal
  refine (shapeCast_a_1a_apply _ _ p q).trans ?_
  refine (sumAxis1_1x64 _ _ _ _ q).trans ?_
  refine Eq.trans ?_ (Cert.RealVal.coe_sum Finset.univ (fun b => X b))
  refine Finset.sum_congr rfl (fun b _ => ?_)
  have hq : q = 0 := Subsingleton.elim _ _
  rw [hq]
  exact hx b

/-- The value stored at the last grid point, when the eight accumulators hold real numbers. -/
theorem final_value (s0 s1 s2 s3 s4 s5 : Vec Ideal S64x64 .f32) (s6 s7 : Vec Ideal S1x64 .f32)
    (S0 S1 S2 S3 S4 S5 : Fin 64 → Fin 64 → ℝ) (P Q : Fin 64 → ℝ)
    (e0 : ∀ a b, s0 (ix2 a b) = ((S0 a b : ℝ) : EReal)) (e1 : ∀ a b, s1 (ix2 a b) = ((S1 a b : ℝ) : EReal))
    (e2 : ∀ a b, s2 (ix2 a b) = ((S2 a b : ℝ) : EReal)) (e3 : ∀ a b, s3 (ix2 a b) = ((S3 a b : ℝ) : EReal))
    (e4 : ∀ a b, s4 (ix2 a b) = ((S4 a b : ℝ) : EReal)) (e5 : ∀ a b, s5 (ix2 a b) = ((S5 a b : ℝ) : EReal))
    (e6 : ∀ a, s6 (ix2 (0 : Fin 1) a) = ((P a : ℝ) : EReal)) (e7 : ∀ b, s7 (ix2 (0 : Fin 1) b) = ((Q b : ℝ) : EReal))
    (j : S1x1.Idx) :
    k0_pay2 (k0_pay11 s0 s1 s2 s3 s4 s5 s6 s7) (k0_pay12 (F := Ideal)) j
      = ((((∑ a : Fin 64, ∑ b : Fin 64, (S0 a b + S1 a b - 2 * S2 a b + S3 a b + S4 a b - 2 * S5 a b)) / 67108864
            + (∑ a : Fin 64, P a) / 1048576 + (∑ b : Fin 64, Q b) / 1048576) / 4 - 1 / 2 : ℝ) : EReal) := by
  obtain ⟨p, q, rfl⟩ : ∃ (p : Fin 1) (q : Fin 1), j = ix2 p q := ⟨j 0, j 1, eq_ix2 j⟩
  show Ideal.div
        (Ideal.div (total (raw s0 s1 s2 s3 s4 s5) (ix2 p q)) (Ideal.ofBits .f32 0x4C800000#32)
          + Ideal.div (rowTotal s6 (ix2 p q)) (Ideal.ofBits .f32 0x49800000#32)
          + Ideal.div (rowTotal s7 (ix2 p q)) (Ideal.ofBits .f32 0x49800000#32))
        (Ideal.ofBits .f32 0x40800000#32)
      - Ideal.ofBits .f32 0x3F000000#32 = _
  rw [total_apply _ _ (raw_apply s0 s1 s2 s3 s4 s5 S0 S1 S2 S3 S4 S5 e0 e1 e2 e3 e4 e5) p q,
    rowTotal_apply s6 P e6 p q, rowTotal_apply s7 Q e7 p q, big26_eq, big20_eq, four_eq, half_eq]
  have h26 : (67108864 : ℝ) ≠ 0 := by norm_num
  have h20 : (1048576 : ℝ) ≠ 0 := by norm_num
  have h4 : (4 : ℝ) ≠ 0 := by norm_num
  simp only [Ideal.div_coe h26, Ideal.div_coe h20, Ideal.div_coe h4, ← EReal.coe_mul, ← EReal.coe_add,
    ← EReal.coe_sub]
  congr 1
  ring

end Cert.KernelIdeal.KF

end
-- ==== Proof.LibSumIdx.lean ====
/-
  Sums over the index sets of rank-3 and rank-4 shapes as iterated sums over the coordinates, and a sum over
  `Fin (n * k)` cut into `n` consecutive blocks of `k`. (Rank 2 is the library's `ValueIdx.sum_idx2`.)
-/
import Idealize.ShloMosaic.Lib.ValueIdx

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `n * k` consecutive indices is the sum over `n` blocks of the sums over the `k` indices of each:
    index `k * t + a` is the `a`-th of block `t`. -/
theorem sum_blocks {M : Type*} [AddCommMonoid M] (n k : Nat) (f : Fin (n * k) → M) :
    ∑ r, f r = ∑ t : Fin n, ∑ a : Fin k, f ⟨k * t.val + a.val, by
      have := t.isLt; have := a.isLt
      calc k * t.val + a.val < k * t.val + k := by omega
        _ = k * (t.val + 1) := by ring
        _ ≤ k * n := Nat.mul_le_mul_left k (by omega)
        _ = n * k := Nat.mul_comm k n⟩ := by
  rw [← Equiv.sum_comp (finProdFinEquiv (m := n) (n := k)) f, Fintype.sum_prod_type]
  refine Finset.sum_congr rfl fun t _ => Finset.sum_congr rfl fun a _ => congrArg f (Fin.ext ?_)
  show a.val + k * t.val = k * t.val + a.val
  omega

end Cert.LibSumIdx

end
-- ==== Proof.KerSums.lean ====
/-
  A sum over the 16384 rows as eight consecutive blocks of 2048 rows, accumulated one block at a time.

  Row `2048 t + r` is the `r`-th row of block `t`. The sum of a function over all rows is the sum over the eight
  blocks of the block sums; and an accumulator that starts at the first block's term and adds one block's term per
  step holds, after step `n`, the partial sum over the blocks `0, …, n`.
-/
import proofs.«105850_j61564061221261_1_alg».proof.Proof.LibSumIdx
import Mathlib.Data.EReal.Basic
import Mathlib.Algebra.BigOperators.Fin

noncomputable section

namespace Cert.KLSums

/-- Row `r` of block `t`. -/
def rowOf (t : ℕ) (ht : t < 8) (r : Fin 2048) : Fin 16384 := ⟨2048 * t + r.val, by have := r.isLt; omega⟩

/-- The sum of `f` over block `t`'s rows; zero past the eighth block. -/
def blockSum (f : Fin 16384 → ℝ) (t : ℕ) : ℝ := if ht : t < 8 then ∑ r : Fin 2048, f (rowOf t ht r) else 0

theorem blockSum_of_lt (f : Fin 16384 → ℝ) (t : ℕ) (ht : t < 8) : blockSum f t = ∑ r : Fin 2048, f (rowOf t ht r) := by
  rw [blockSum, dif_pos ht]

/-- The eight block sums add up to the sum over all rows. -/
theorem sum_range_blockSum (f : Fin 16384 → ℝ) : ∑ t ∈ Finset.range 8, blockSum f t = ∑ n : Fin 16384, f n := by
  rw [Finset.sum_range]
  refine Eq.trans (Finset.sum_congr rfl fun t _ => ?_) (Cert.LibSumIdx.sum_blocks 8 2048 f).symm
  rw [blockSum_of_lt f t.val t.isLt]
  exact Finset.sum_congr rfl fun a _ => congrArg f (Fin.ext rfl)

/-- An accumulator that starts at the first block's term and adds one block's term per step holds, after step `n`, the partial sum. -/
theorem acc_closed {X : Type*} {N : ℕ} (S : (n : ℕ) → n < N → X → EReal) (B : ℕ → X → ℝ)
    (h0 : ∀ (h : 0 < N) (x : X), S 0 h x = ((B 0 x : ℝ) : EReal))
    (hs : ∀ (n : ℕ) (h : n + 1 < N) (x : X), S (n + 1) h x = S n (Nat.lt_of_succ_lt h) x + ((B (n + 1) x : ℝ) : EReal)) :
    ∀ (n : ℕ) (h : n < N) (x : X), S n h x = ((∑ t ∈ Finset.range (n + 1), B t x : ℝ) : EReal) := by
  intro n
  induction n with
  | zero =>
    intro h x
    rw [h0 h x, Finset.sum_range_succ, Finset.sum_range_zero, zero_add]
  | succ n ih =>
    intro h x
    rw [hs n h x, ih (Nat.lt_of_succ_lt h) x, Finset.sum_range_succ _ (n + 1), EReal.coe_add]

end Cert.KLSums

end
-- ==== Proof.KerChain.lean ====
/-
  The eight accumulators carried over the eight blocks of rows, and the value formed from them at the end.

  The 16384 rows are read as eight consecutive blocks of 2048. Each accumulator starts, at the first block, from a
  zero fill plus that block's term, and adds one block's term at each later block; a block's term is, entry by entry,
  the sum over the block's rows of the same product of real numbers that the specification sums over all rows. So
  after the last block each accumulator holds, entry by entry, the specification's sum over all 16384 rows
  (`closed0` … `closed7`), and the final combination of the eight — the six cross sums combined and totalled, the two
  single sums totalled, the three totals weighted, a quarter, minus a half — is the specification's expanded form
  (`chain_value`).
-/
import proofs.«105850_j61564061221261_1_alg».proof.Proof.Spec
import proofs.«105850_j61564061221261_1_alg».proof.Proof.KerBlock
import proofs.«105850_j61564061221261_1_alg».proof.Proof.KerFinal
import proofs.«105850_j61564061221261_1_alg».proof.Proof.KerSums

noncomputable section

namespace Cert.KernelIdeal.KCh

open Idealize.ShloMosaic Idealize.ShloMosaic.ValueIdx Cert.KernelIdeal Cert.KernelIdeal.Gen

variable [Cert.KernelIdeal.Facts₀]

/-- A family of values indexed by the block number that starts at the first block's sum and adds one block's sum per
    step holds, after the eighth block, the sum over all rows. -/
theorem family_closed {X : Type*} (T : (n : ℕ) → n < 8 → X → EReal) (f : X → Fin 16384 → ℝ)
    (h0 : ∀ (h : 0 < 8) (x : X), T 0 h x = ((∑ r : Fin 2048, f x (Cert.KLSums.rowOf 0 h r) : ℝ) : EReal))
    (hs : ∀ (n : ℕ) (h : n + 1 < 8) (x : X),
      T (n + 1) h x = T n (Nat.lt_of_succ_lt h) x + ((∑ r : Fin 2048, f x (Cert.KLSums.rowOf (n + 1) h r) : ℝ) : EReal))
    (h7 : 7 < 8) (x : X) : T 7 h7 x = ((∑ n : Fin 16384, f x n : ℝ) : EReal) := by
  have hc := Cert.KLSums.acc_closed (N := 8) T (fun t x => Cert.KLSums.blockSum (f x) t)
    (fun h x => by rw [h0 h x, Cert.KLSums.blockSum_of_lt _ 0 h])
    (fun n h x => by rw [hs n h x, Cert.KLSums.blockSum_of_lt _ (n + 1) h]) 7 h7 x
  exact hc.trans (congrArg _ (Cert.KLSums.sum_range_blockSum (f x)))

/-- After the last block the accumulator of the reciprocal squared scales of the first family against squared scales of the second holds the sum over all rows. -/
theorem closed0 (s v : Cert.KLSpec.Arr) (hs : ∀ n i, 0 < s n i)
    (blk2 blk3 : (n : ℕ) → n < 8 → Vec Ideal S2048x64 .f32)
    (hb2 : ∀ (n : ℕ) (h : n < 8) (r : Fin 2048) (a : Fin 64), blk2 n h (ix2 r a) = ((s (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T0 : (n : ℕ) → n < 8 → Vec Ideal S64x64 .f32)
    (z0 : ∀ h, T0 0 h = k0_pay21 (blk2 0 h) (blk3 0 h) (k0_pay3 (F := Ideal)))
    (s0 : ∀ (n : ℕ) (h : n + 1 < 8), T0 (n + 1) h = k0_pay21 (blk2 (n + 1) h) (blk3 (n + 1) h) (T0 n (Nat.lt_of_succ_lt h)))
    (h7 : 7 < 8) (a b : Fin 64) :
    T0 7 h7 (ix2 a b) = ((Cert.KLSpec.acc1 s v a b : ℝ) : EReal) := by
  unfold Cert.KLSpec.acc1
  refine family_closed (X := Fin 64 × Fin 64) (fun n h x => T0 n h (ix2 x.1 x.2))
    (fun x n => (1 / (s n x.1 * s n x.1)) * (v n x.2 * v n x.2)) ?_ ?_ h7 (a, b)
  · intro h x
    show T0 0 h (ix2 x.1 x.2) = _
    rw [z0 h]
    refine (KB.step0 (fun r a => s (Cert.KLSums.rowOf 0 h r) a) (fun r a => v (Cert.KLSums.rowOf 0 h r) a) (blk2 0 h) (blk3 0 h) (hb2 0 h) (hb3 0 h) (fun r a => hs _ a) (k0_pay3 (F := Ideal)) x.1 x.2).trans ?_
    rw [KF.zero3, zero_add]
  · intro n h x
    show T0 (n + 1) h (ix2 x.1 x.2) = _
    rw [s0 n h]
    exact KB.step0 (fun r a => s (Cert.KLSums.rowOf (n + 1) h r) a) (fun r a => v (Cert.KLSums.rowOf (n + 1) h r) a) (blk2 (n + 1) h) (blk3 (n + 1) h) (hb2 (n + 1) h) (hb3 (n + 1) h) (fun r a => hs _ a) (T0 n (Nat.lt_of_succ_lt h)) x.1 x.2

/-- After the last block the accumulator of the reciprocal squared scales of the first family against squared means of the second holds the sum over all rows. -/
theorem closed1 (u s : Cert.KLSpec.Arr) (hs : ∀ n i, 0 < s n i)
    (blk1 blk2 : (n : ℕ) → n < 8 → Vec Ideal S2048x64 .f32)
    (hb1 : ∀ (n : ℕ) (h : n < 8) (r : Fin 2048) (a : Fin 64), blk1 n h (ix2 r a) = ((u (Cert.KLSums.rowOf n h r) a : ℝ) : EReal))
    (hb2 : ∀ (n : ℕ) (h : n < 8) (r : Fin 2048) (a : Fin 64), blk2 n h (ix2 r a) = ((s (Cert.KLSums.rowOf n h r) a : ℝ) : EReal))
    (T1 : (n : ℕ) → n < 8 → Vec Ideal S64x64 .f32)
    (z1 : ∀ h, T1 0 h = k0_pay22 (blk1 0 h) (blk2 0 h) (k0_pay4 (F := Ideal)))
    (s1 : ∀ (n : ℕ) (h : n + 1 < 8), T1 (n + 1) h = k0_pay22 (blk1 (n + 1) h) (blk2 (n + 1) h) (T1 n (Nat.lt_of_succ_lt h)))
    (h7 : 7 < 8) (a b : Fin 64) :
    T1 7 h7 (ix2 a b) = ((Cert.KLSpec.acc2 u s a b : ℝ) : EReal) := by
  unfold Cert.KLSpec.acc2
  refine family_closed (X := Fin 64 × Fin 64) (fun n h x => T1 n h (ix2 x.1 x.2))
    (fun x n => (1 / (s n x.1 * s n x.1)) * (u n x.2 * u n x.2)) ?_ ?_ h7 (a, b)
  · intro h x
    show T1 0 h (ix2 x.1 x.2) = _
    rw [z1 h]
    refine (KB.step1 (fun r a => u (Cert.KLSums.rowOf 0 h r) a) (fun r a => s (Cert.KLSums.rowOf 0 h r) a) (blk1 0 h) (blk2 0 h) (hb1 0 h) (hb2 0 h) (fun r a => hs _ a) (k0_pay4 (F := Ideal)) x.1 x.2).trans ?_
    rw [KF.zero4, zero_add]
  · intro n h x
    show T1 (n + 1) h (ix2 x.1 x.2) = _
    rw [s1 n h]
    exact KB.step1 (fun r a => u (Cert.KLSums.rowOf (n + 1) h r) a) (fun r a => s (Cert.KLSums.rowOf (n + 1) h r) a) (blk1 (n + 1) h) (blk2 (n + 1) h) (hb1 (n + 1) h) (hb2 (n + 1) h) (fun r a => hs _ a) (T1 n (Nat.lt_of_succ_lt h)) x.1 x.2

/-- After the last block the accumulator of the means of the first family over its squared scales against means of the second holds the sum over all rows. -/
theorem closed2 (g u s : Cert.KLSpec.Arr) (hs : ∀ n i, 0 < s n i)
    (blk0 blk1 blk2 : (n : ℕ) → n < 8 → Vec Ideal S2048x64 .f32)
    (hb0 : ∀ (n : ℕ) (h : n < 8) (r : Fin 2048) (a : Fin 64), blk0 n h (ix2 r a) = ((g (Cert.KLSums.rowOf n h r) a : ℝ) : EReal))
    (hb1 : ∀ (n : ℕ) (h : n < 8) (r : Fin 2048) (a : Fin 64), blk1 n h (ix2 r a) = ((u (Cert.KLSums.rowOf n h r) a : ℝ) : EReal))
    (hb2 : ∀ (n : ℕ) (h : n < 8) (r : Fin 2048) (a : Fin 64), blk2 n h (ix2 r a) = ((s (Cert.KLSums.rowOf n h r) a : ℝ) : EReal))
    (T2 : (n : ℕ) → n < 8 → Vec Ideal S64x64 .f32)
    (z2 : ∀ h, T2 0 h = k0_pay24 (k0_pay5 (F := Ideal)) (k0_pay23 (blk0 0 h) (blk1 0 h) (blk2 0 h)))
    (s2 : ∀ (n : ℕ) (h : n + 1 < 8), T2 (n + 1) h = k0_pay24 (T2 n (Nat.lt_of_succ_lt h)) (k0_pay23 (blk0 (n + 1) h) (blk1 (n + 1) h) (blk2 (n + 1) h)))
    (h7 : 7 < 8) (a b : Fin 64) :
    T2 7 h7 (ix2 a b) = ((Cert.KLSpec.acc3 g u s a b : ℝ) : EReal) := by
  unfold Cert.KLSpec.acc3
  refine family_closed (X := Fin 64 × Fin 64) (fun n h x => T2 n h (ix2 x.1 x.2))
    (fun x n => (g n x.1 * (1 / (s n x.1 * s n x.1))) * u n x.2) ?_ ?_ h7 (a, b)
  · intro h x
    show T2 0 h (ix2 x.1 x.2) = _
    rw [z2 h]
    refine (KB.step2 (fun r a => g (Cert.KLSums.rowOf 0 h r) a) (fun r a => u (Cert.KLSums.rowOf 0 h r) a) (fun r a => s (Cert.KLSums.rowOf 0 h r) a) (blk0 0 h) (blk1 0 h) (blk2 0 h) (hb0 0 h) (hb1 0 h) (hb2 0 h) (fun r a => hs _ a) (k0_pay5 (F := Ideal)) x.1 x.2).trans ?_
    rw [KF.zero5, zero_add]
  · intro n h x
    show T2 (n + 1) h (ix2 x.1 x.2) = _
    rw [s2 n h]
    exact KB.step2 (fun r a => g (Cert.KLSums.rowOf (n + 1) h r) a) (fun r a => u (Cert.KLSums.rowOf (n + 1) h r) a) (fun r a => s (Cert.KLSums.rowOf (n + 1) h r) a) (blk0 (n + 1) h) (blk1 (n + 1) h) (blk2 (n + 1) h) (hb0 (n + 1) h) (hb1 (n + 1) h) (hb2 (n + 1) h) (fun r a => hs _ a) (T2 n (Nat.lt_of_succ_lt h)) x.1 x.2

/-- After the last block the accumulator of the squared scales of the first family against reciprocal squared scales of the second holds the sum over all rows. -/
theorem closed3 (s v : Cert.KLSpec.Arr) (hv : ∀ n j, 0 < v n j)
    (blk2 blk3 : (n : ℕ) → n < 8 → Vec Ideal S2048x64 .f32)
    (hb2 : ∀ (n : ℕ) (h : n < 8) (r : Fin 2048) (a : Fin 64), blk2 n h (ix2 r a) = ((s (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T3 : (n : ℕ) → n < 8 → Vec Ideal S64x64 .f32)
    (z3 : ∀ h, T3 0 h = k0_pay25 (k0_pay14 (blk2 0 h)) (k0_pay17 (blk3 0 h)) (k0_pay6 (F := Ideal)))
    (s3 : ∀ (n : ℕ) (h : n + 1 < 8), T3 (n + 1) h = k0_pay25 (k0_pay14 (blk2 (n + 1) h)) (k0_pay17 (blk3 (n + 1) h)) (T3 n (Nat.lt_of_succ_lt h)))
    (h7 : 7 < 8) (a b : Fin 64) :
    T3 7 h7 (ix2 a b) = ((Cert.KLSpec.accA s v a b : ℝ) : EReal) := by
  unfold Cert.KLSpec.accA
  refine family_closed (X := Fin 64 × Fin 64) (fun n h x => T3 n h (ix2 x.1 x.2))
    (fun x n => (s n x.1 * s n x.1) * (1 / (v n x.2 * v n x.2))) ?_ ?_ h7 (a, b)
  · intro h x
    show T3 0 h (ix2 x.1 x.2) = _
    rw [z3 h]
    refine (KB.step3 (fun r a => s (Cert.KLSums.rowOf 0 h r) a) (fun r a => v (Cert.KLSums.rowOf 0 h r) a) (blk2 0 h) (blk3 0 h) (hb2 0 h) (hb3 0 h) (fun r a => hv _ a) (k0_pay6 (F := Ideal)) x.1 x.2).trans ?_
    rw [KF.zero6, zero_add]
  · intro n h x
    show T3 (n + 1) h (ix2 x.1 x.2) = _
    rw [s3 n h]
    exact KB.step3 (fun r a => s (Cert.KLSums.rowOf (n + 1) h r) a) (fun r a => v (Cert.KLSums.rowOf (n + 1) h r) a) (blk2 (n + 1) h) (blk3 (n + 1) h) (hb2 (n + 1) h) (hb3 (n + 1) h) (fun r a => hv _ a) (T3 n (Nat.lt_of_succ_lt h)) x.1 x.2

/-- After the last block the accumulator of the squared means of the first family against reciprocal squared scales of the second holds the sum over all rows. -/
theorem closed4 (g v : Cert.KLSpec.Arr) (hv : ∀ n j, 0 < v n j)
    (blk0 blk3 : (n : ℕ) → n < 8 → Vec Ideal S2048x64 .f32)
    (hb0 : ∀ (n : ℕ) (h : n < 8) (r : Fin 2048) (a : Fin 64), blk0 n h (ix2 r a) = ((g (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T4 : (n : ℕ) → n < 8 → Vec Ideal S64x64 .f32)
    (z4 : ∀ h, T4 0 h = k0_pay26 (k0_pay17 (blk3 0 h)) (k0_pay18 (blk0 0 h)) (k0_pay7 (F := Ideal)))
    (s4 : ∀ (n : ℕ) (h : n + 1 < 8), T4 (n + 1) h = k0_pay26 (k0_pay17 (blk3 (n + 1) h)) (k0_pay18 (blk0 (n + 1) h)) (T4 n (Nat.lt_of_succ_lt h)))
    (h7 : 7 < 8) (a b : Fin 64) :
    T4 7 h7 (ix2 a b) = ((Cert.KLSpec.accB g v a b : ℝ) : EReal) := by
  unfold Cert.KLSpec.accB
  refine family_closed (X := Fin 64 × Fin 64) (fun n h x => T4 n h (ix2 x.1 x.2))
    (fun x n => (g n x.1 * g n x.1) * (1 / (v n x.2 * v n x.2))) ?_ ?_ h7 (a, b)
  · intro h x
    show T4 0 h (ix2 x.1 x.2) = _
    rw [z4 h]
    refine (KB.step4 (fun r a => g (Cert.KLSums.rowOf 0 h r) a) (fun r a => v (Cert.KLSums.rowOf 0 h r) a) (blk0 0 h) (blk3 0 h) (hb0 0 h) (hb3 0 h) (fun r a => hv _ a) (k0_pay7 (F := Ideal)) x.1 x.2).trans ?_
    rw [KF.zero7, zero_add]
  · intro n h x
    show T4 (n + 1) h (ix2 x.1 x.2) = _
    rw [s4 n h]
    exact KB.step4 (fun r a => g (Cert.KLSums.rowOf (n + 1) h r) a) (fun r a => v (Cert.KLSums.rowOf (n + 1) h r) a) (blk0 (n + 1) h) (blk3 (n + 1) h) (hb0 (n + 1) h) (hb3 (n + 1) h) (fun r a => hv _ a) (T4 n (Nat.lt_of_succ_lt h)) x.1 x.2

/-- After the last block the accumulator of the means of the first family against means of the second over its squared scales holds the sum over all rows. -/
theorem closed5 (g u v : Cert.KLSpec.Arr) (hv : ∀ n j, 0 < v n j)
    (blk0 blk1 blk3 : (n : ℕ) → n < 8 → Vec Ideal S2048x64 .f32)
    (hb0 : ∀ (n : ℕ) (h : n < 8) (r : Fin 2048) (a : Fin 64), blk0 n h (ix2 r a) = ((g (Cert.KLSums.rowOf n h r) a : ℝ) : EReal))
    (hb1 : ∀ (n : ℕ) (h : n < 8) (r : Fin 2048) (a : Fin 64), blk1 n h (ix2 r a) = ((u (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T5 : (n : ℕ) → n < 8 → Vec Ideal S64x64 .f32)
    (z5 : ∀ h, T5 0 h = k0_pay27 (blk0 0 h) (k0_pay20 (blk1 0 h) (blk3 0 h)) (k0_pay8 (F := Ideal)))
    (s5 : ∀ (n : ℕ) (h : n + 1 < 8), T5 (n + 1) h = k0_pay27 (blk0 (n + 1) h) (k0_pay20 (blk1 (n + 1) h) (blk3 (n + 1) h)) (T5 n (Nat.lt_of_succ_lt h)))
    (h7 : 7 < 8) (a b : Fin 64) :
    T5 7 h7 (ix2 a b) = ((Cert.KLSpec.accC g u v a b : ℝ) : EReal) := by
  unfold Cert.KLSpec.accC
  refine family_closed (X := Fin 64 × Fin 64) (fun n h x => T5 n h (ix2 x.1 x.2))
    (fun x n => g n x.1 * (u n x.2 * (1 / (v n x.2 * v n x.2)))) ?_ ?_ h7 (a, b)
  · intro h x
    show T5 0 h (ix2 x.1 x.2) = _
    rw [z5 h]
    refine (KB.step5 (fun r a => g (Cert.KLSums.rowOf 0 h r) a) (fun r a => u (Cert.KLSums.rowOf 0 h r) a) (fun r a => v (Cert.KLSums.rowOf 0 h r) a) (blk0 0 h) (blk1 0 h) (blk3 0 h) (hb0 0 h) (hb1 0 h) (hb3 0 h) (fun r a => hv _ a) (k0_pay8 (F := Ideal)) x.1 x.2).trans ?_
    rw [KF.zero8, zero_add]
  · intro n h x
    show T5 (n + 1) h (ix2 x.1 x.2) = _
    rw [s5 n h]
    exact KB.step5 (fun r a => g (Cert.KLSums.rowOf (n + 1) h r) a) (fun r a => u (Cert.KLSums.rowOf (n + 1) h r) a) (fun r a => v (Cert.KLSums.rowOf (n + 1) h r) a) (blk0 (n + 1) h) (blk1 (n + 1) h) (blk3 (n + 1) h) (hb0 (n + 1) h) (hb1 (n + 1) h) (hb3 (n + 1) h) (fun r a => hv _ a) (T5 n (Nat.lt_of_succ_lt h)) x.1 x.2

/-- After the last block the accumulator of the squared means of the first family over its squared scales holds the sum over all rows. -/
theorem closed6 (g s : Cert.KLSpec.Arr) (hs : ∀ n i, 0 < s n i)
    (blk0 blk2 : (n : ℕ) → n < 8 → Vec Ideal S2048x64 .f32)
    (hb0 : ∀ (n : ℕ) (h : n < 8) (r : Fin 2048) (a : Fin 64), blk0 n h (ix2 r a) = ((g (Cert.KLSums.rowOf n h r) a : ℝ) : EReal))
    (hb2 : ∀ (n : ℕ) (h : n < 8) (r : Fin 2048) (a : Fin 64), blk2 n h (ix2 r a) = ((s (Cert.KLSums.rowOf n h r) a : ℝ) : EReal))
    (T6 : (n : ℕ) → n < 8 → Vec Ideal S1x64 .f32)
    (z6 : ∀ h, T6 0 h = k0_pay28 (k0_pay16 (blk2 0 h)) (k0_pay18 (blk0 0 h)) (k0_pay9 (F := Ideal)))
    (s6 : ∀ (n : ℕ) (h : n + 1 < 8), T6 (n + 1) h = k0_pay28 (k0_pay16 (blk2 (n + 1) h)) (k0_pay18 (blk0 (n + 1) h)) (T6 n (Nat.lt_of_succ_lt h)))
    (h7 : 7 < 8) (a : Fin 64) :
    T6 7 h7 (ix2 (0 : Fin 1) a) = ((Cert.KLSpec.accP g s a : ℝ) : EReal) := by
  unfold Cert.KLSpec.accP
  refine family_closed (X := Fin 64) (fun n h x => T6 n h (ix2 (0 : Fin 1) x))
    (fun x n => (g n x * g n x) * (1 / (s n x * s n x))) ?_ ?_ h7 a
  · intro h x
    show T6 0 h (ix2 (0 : Fin 1) x) = _
    rw [z6 h]
    refine (KB.step6 (fun r a => g (Cert.KLSums.rowOf 0 h r) a) (fun r a => s (Cert.KLSums.rowOf 0 h r) a) (blk0 0 h) (blk2 0 h) (hb0 0 h) (hb2 0 h) (fun r a => hs _ a) (k0_pay9 (F := Ideal)) x).trans ?_
    rw [KF.zero9, zero_add]
  · intro n h x
    show T6 (n + 1) h (ix2 (0 : Fin 1) x) = _
    rw [s6 n h]
    exact KB.step6 (fun r a => g (Cert.KLSums.rowOf (n + 1) h r) a) (fun r a => s (Cert.KLSums.rowOf (n + 1) h r) a) (blk0 (n + 1) h) (blk2 (n + 1) h) (hb0 (n + 1) h) (hb2 (n + 1) h) (fun r a => hs _ a) (T6 n (Nat.lt_of_succ_lt h)) x

/-- After the last block the accumulator of the squared means of the second family over its squared scales holds the sum over all rows. -/
theorem closed7 (u v : Cert.KLSpec.Arr) (hv : ∀ n j, 0 < v n j)
    (blk1 blk3 : (n : ℕ) → n < 8 → Vec Ideal S2048x64 .f32)
    (hb1 : ∀ (n : ℕ) (h : n < 8) (r : Fin 2048) (a : Fin 64), blk1 n h (ix2 r a) = ((u (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T7 : (n : ℕ) → n < 8 → Vec Ideal S1x64 .f32)
    (z7 : ∀ h, T7 0 h = k0_pay1 (k0_pay17 (blk3 0 h)) (k0_pay19 (blk1 0 h)) (k0_pay13 (k0_pay10 (F := Ideal))))
    (s7 : ∀ (n : ℕ) (h : n + 1 < 8), T7 (n + 1) h = k0_pay1 (k0_pay17 (blk3 (n + 1) h)) (k0_pay19 (blk1 (n + 1) h)) (T7 n (Nat.lt_of_succ_lt h)))
    (h7 : 7 < 8) (a : Fin 64) :
    T7 7 h7 (ix2 (0 : Fin 1) a) = ((Cert.KLSpec.accQ u v a : ℝ) : EReal) := by
  unfold Cert.KLSpec.accQ
  refine family_closed (X := Fin 64) (fun n h x => T7 n h (ix2 (0 : Fin 1) x))
    (fun x n => (u n x * u n x) * (1 / (v n x * v n x))) ?_ ?_ h7 a
  · intro h x
    show T7 0 h (ix2 (0 : Fin 1) x) = _
    rw [z7 h]
    refine (KB.step7 (fun r a => u (Cert.KLSums.rowOf 0 h r) a) (fun r a => v (Cert.KLSums.rowOf 0 h r) a) (blk1 0 h) (blk3 0 h) (hb1 0 h) (hb3 0 h) (fun r a => hv _ a) (k0_pay13 (k0_pay10 (F := Ideal))) x).trans ?_
    rw [KF.zero13, zero_add]
  · intro n h x
    show T7 (n + 1) h (ix2 (0 : Fin 1) x) = _
    rw [s7 n h]
    exact KB.step7 (fun r a => u (Cert.KLSums.rowOf (n + 1) h r) a) (fun r a => v (Cert.KLSums.rowOf (n + 1) h r) a) (blk1 (n + 1) h) (blk3 (n + 1) h) (hb1 (n + 1) h) (hb3 (n + 1) h) (fun r a => hv _ a) (T7 n (Nat.lt_of_succ_lt h)) x

/-- The value formed at the last block from the eight accumulators is the specification's expanded form. -/
theorem chain_value (g u s v : Cert.KLSpec.Arr) (hs : ∀ n i, 0 < s n i) (hv : ∀ n j, 0 < v n j)
    (blk0 blk1 blk2 blk3 : (n : ℕ) → n < 8 → Vec Ideal S2048x64 .f32)
    (hb0 : ∀ (n : ℕ) (h : n < 8) (r : Fin 2048) (a : Fin 64), blk0 n h (ix2 r a) = ((g (Cert.KLSums.rowOf n h r) a : ℝ) : EReal))
    (hb1 : ∀ (n : ℕ) (h : n < 8) (r : Fin 2048) (a : Fin 64), blk1 n h (ix2 r a) = ((u (Cert.KLSums.rowOf n h r) a : ℝ) : EReal))
    (hb2 : ∀ (n : ℕ) (h : n < 8) (r : Fin 2048) (a : Fin 64), blk2 n h (ix2 r a) = ((s (Cert.KLSums.rowOf n h r) a : ℝ) : EReal))
    (hb3 : ∀ (n : ℕ) (h : n < 8) (r : Fin 2048) (a : Fin 64), blk3 n h (ix2 r a) = ((v (Cert.KLSums.rowOf n h r) a : ℝ) : EReal))
    (T0 T1 T2 T3 T4 T5 : (n : ℕ) → n < 8 → Vec Ideal S64x64 .f32) (T6 T7 : (n : ℕ) → n < 8 → Vec Ideal S1x64 .f32)
    (z0 : ∀ h, T0 0 h = k0_pay21 (blk2 0 h) (blk3 0 h) (k0_pay3 (F := Ideal)))
    (z1 : ∀ h, T1 0 h = k0_pay22 (blk1 0 h) (blk2 0 h) (k0_pay4 (F := Ideal)))
    (z2 : ∀ h, T2 0 h = k0_pay24 (k0_pay5 (F := Ideal)) (k0_pay23 (blk0 0 h) (blk1 0 h) (blk2 0 h)))
    (z3 : ∀ h, T3 0 h = k0_pay25 (k0_pay14 (blk2 0 h)) (k0_pay17 (blk3 0 h)) (k0_pay6 (F := Ideal)))
    (z4 : ∀ h, T4 0 h = k0_pay26 (k0_pay17 (blk3 0 h)) (k0_pay18 (blk0 0 h)) (k0_pay7 (F := Ideal)))
    (z5 : ∀ h, T5 0 h = k0_pay27 (blk0 0 h) (k0_pay20 (blk1 0 h) (blk3 0 h)) (k0_pay8 (F := Ideal)))
    (z6 : ∀ h, T6 0 h = k0_pay28 (k0_pay16 (blk2 0 h)) (k0_pay18 (blk0 0 h)) (k0_pay9 (F := Ideal)))
    (z7 : ∀ h, T7 0 h = k0_pay1 (k0_pay17 (blk3 0 h)) (k0_pay19 (blk1 0 h)) (k0_pay13 (k0_pay10 (F := Ideal))))
    (s0 : ∀ (n : ℕ) (h : n + 1 < 8), T0 (n + 1) h = k0_pay21 (blk2 (n + 1) h) (blk3 (n + 1) h) (T0 n (Nat.lt_of_succ_lt h)))
    (s1 : ∀ (n : ℕ) (h : n + 1 < 8), T1 (n + 1) h = k0_pay22 (blk1 (n + 1) h) (blk2 (n + 1) h) (T1 n (Nat.lt_of_succ_lt h)))
    (s2 : ∀ (n : ℕ) (h : n + 1 < 8), T2 (n + 1) h = k0_pay24 (T2 n (Nat.lt_of_succ_lt h)) (k0_pay23 (blk0 (n + 1) h) (blk1 (n + 1) h) (blk2 (n + 1) h)))
    (s3 : ∀ (n : ℕ) (h : n + 1 < 8), T3 (n + 1) h = k0_pay25 (k0_pay14 (blk2 (n + 1) h)) (k0_pay17 (blk3 (n + 1) h)) (T3 n (Nat.lt_of_succ_lt h)))
    (s4 : ∀ (n : ℕ) (h : n + 1 < 8), T4 (n + 1) h = k0_pay26 (k0_pay17 (blk3 (n + 1) h)) (k0_pay18 (blk0 (n + 1) h)) (T4 n (Nat.lt_of_succ_lt h)))
    (s5 : ∀ (n : ℕ) (h : n + 1 < 8), T5 (n + 1) h = k0_pay27 (blk0 (n + 1) h) (k0_pay20 (blk1 (n + 1) h) (blk3 (n + 1) h)) (T5 n (Nat.lt_of_succ_lt h)))
    (s6 : ∀ (n : ℕ) (h : n + 1 < 8), T6 (n + 1) h = k0_pay28 (k0_pay16 (blk2 (n + 1) h)) (k0_pay18 (blk0 (n + 1) h)) (T6 n (Nat.lt_of_succ_lt h)))
    (s7 : ∀ (n : ℕ) (h : n + 1 < 8), T7 (n + 1) h = k0_pay1 (k0_pay17 (blk3 (n + 1) h)) (k0_pay19 (blk1 (n + 1) h)) (T7 n (Nat.lt_of_succ_lt h)))
    (h7 : 7 < 8) (j : S1x1.Idx) :
    k0_pay2 (k0_pay11 (T0 7 h7) (T1 7 h7) (T2 7 h7) (T3 7 h7) (T4 7 h7) (T5 7 h7) (T6 7 h7) (T7 7 h7)) (k0_pay12 (F := Ideal)) j
      = ((Cert.KLSpec.kerVal g u s v : ℝ) : EReal) := by
  refine (KF.final_value (T0 7 h7) (T1 7 h7) (T2 7 h7) (T3 7 h7) (T4 7 h7) (T5 7 h7) (T6 7 h7) (T7 7 h7)
    (Cert.KLSpec.acc1 s v) (Cert.KLSpec.acc2 u s) (Cert.KLSpec.acc3 g u s) (Cert.KLSpec.accA s v) (Cert.KLSpec.accB g v)
    (Cert.KLSpec.accC g u v) (Cert.KLSpec.accP g s) (Cert.KLSpec.accQ u v)
    (closed0 s v hs blk2 blk3 hb2 hb3 T0 z0 s0 h7)
    (closed1 u s hs blk1 blk2 hb1 hb2 T1 z1 s1 h7)
    (closed2 g u s hs blk0 blk1 blk2 hb0 hb1 hb2 T2 z2 s2 h7)
    (closed3 s v hv blk2 blk3 hb2 hb3 T3 z3 s3 h7)
    (closed4 g v hv blk0 blk3 hb0 hb3 T4 z4 s4 h7)
    (closed5 g u v hv blk0 blk1 blk3 hb0 hb1 hb3 T5 z5 s5 h7)
    (closed6 g s hs blk0 blk2 hb0 hb2 T6 z6 s6 h7)
    (closed7 u v hv blk1 blk3 hb1 hb3 T7 z7 s7 h7)
    j).trans ?_
  unfold Cert.KLSpec.kerVal Cert.KLSpec.raw
  rfl

end Cert.KernelIdeal.KCh

end
-- ==== Proof.KerWindow.lean ====
/-
  What an input window's block holds. Each of the four argument arrays has 16384 rows and 64 columns and
  is read through a window of 2048 rows by 64 columns whose block index at grid point t is (t, 0). So
  row r, column a of the block of point t is row 2048 t + r, column a of the array: along each axis the
  block index times the block's extent, plus the position inside the block.
-/
import proofs.«105850_j61564061221261_1_alg».proof.Proof.Gen.KernelIdeal.Frame.Runs
import Idealize.ShloMosaic.Lib.ValueIdx
import Idealize.ShloMosaic.Lib.Pipeline.Value

noncomputable section

namespace Cert.KernelIdeal.KW

open Idealize.ShloMosaic Idealize.ShloMosaic.TcCoe Idealize.ShloMosaic.ValueIdx Idealize.SL.Sem Cert.KernelIdeal
  Cert.KernelIdeal.Gen

variable {F : FTy → Type} [FloatOps F] (m : (ℓ : Loc nD τ sig) → Buf (Elt F) ℓ)

/-- Input window 0's block at grid point t, at row r and column a, is the argument array 0 at row
    2048 t + r and column a: the block index is (t, 0) and the block is 2048 rows by 64 columns. -/
theorem iblk0_at (c : Dev nD) (t : Fin cfg0.N) (r : Fin 2048) (a : Fin 64) (hlt : 2048 * t.val + r.val < 16384) :
    (iblk m c 0 t : Vec F S2048x64 .f32) (ix2 r a)
      = m ((c.tc : Thread nD τ).loc main_arg0) (ix2 (⟨2048 * t.val + r.val, hlt⟩ : Fin 16384) a) := by
  have hi : win0_0.index t 0 = t.val ∧ win0_0.index t 1 = 0 := by
    rcases fin_N0 t with rfl | rfl | rfl | rfl | rfl | rfl | rfl | rfl <;> decide
  unfold iblk
  rw [View.read_apply]
  show V m c main_arg0 _ = m (c.tc.loc main_arg0) _
  unfold V
  congr 1
  funext d
  apply Fin.ext
  match d with
  | ⟨0, _⟩ => show win0_0.index t 0 * 2048 + 1 * r.val = 2048 * t.val + r.val; rw [hi.1]; omega
  | ⟨1, _⟩ => show win0_0.index t 1 * 64 + 1 * a.val = a.val; rw [hi.2]; omega

/-- Input window 1's block at grid point t, at row r and column a, is the argument array 1 at row
    2048 t + r and column a: the block index is (t, 0) and the block is 2048 rows by 64 columns. -/
theorem iblk1_at (c : Dev nD) (t : Fin cfg0.N) (r : Fin 2048) (a : Fin 64) (hlt : 2048 * t.val + r.val < 16384) :
    (iblk m c 1 t : Vec F S2048x64 .f32) (ix2 r a)
      = m ((c.tc : Thread nD τ).loc main_arg1) (ix2 (⟨2048 * t.val + r.val, hlt⟩ : Fin 16384) a) := by
  have hi : win0_1.index t 0 = t.val ∧ win0_1.index t 1 = 0 := by
    rcases fin_N0 t with rfl | rfl | rfl | rfl | rfl | rfl | rfl | rfl <;> decide
  unfold iblk
  rw [View.read_apply]
  show V m c main_arg1 _ = m (c.tc.loc main_arg1) _
  unfold V
  congr 1
  funext d
  apply Fin.ext
  match d with
  | ⟨0, _⟩ => show win0_1.index t 0 * 2048 + 1 * r.val = 2048 * t.val + r.val; rw [hi.1]; omega
  | ⟨1, _⟩ => show win0_1.index t 1 * 64 + 1 * a.val = a.val; rw [hi.2]; omega

/-- Input window 2's block at grid point t, at row r and column a, is the argument array 2 at row
    2048 t + r and column a: the block index is (t, 0) and the block is 2048 rows by 64 columns. -/
theorem iblk2_at (c : Dev nD) (t : Fin cfg0.N) (r : Fin 2048) (a : Fin 64) (hlt : 2048 * t.val + r.val < 16384) :
    (iblk m c 2 t : Vec F S2048x64 .f32) (ix2 r a)
      = m ((c.tc : Thread nD τ).loc main_arg2) (ix2 (⟨2048 * t.val + r.val, hlt⟩ : Fin 16384) a) := by
  have hi : win0_2.index t 0 = t.val ∧ win0_2.index t 1 = 0 := by
    rcases fin_N0 t with rfl | rfl | rfl | rfl | rfl | rfl | rfl | rfl <;> decide
  unfold iblk
  rw [View.read_apply]
  show V m c main_arg2 _ = m (c.tc.loc main_arg2) _
  unfold V
  congr 1
  funext d
  apply Fin.ext
  match d with
  | ⟨0, _⟩ => show win0_2.index t 0 * 2048 + 1 * r.val = 2048 * t.val + r.val; rw [hi.1]; omega
  | ⟨1, _⟩ => show win0_2.index t 1 * 64 + 1 * a.val = a.val; rw [hi.2]; omega

/-- Input window 3's block at grid point t, at row r and column a, is the argument array 3 at row
    2048 t + r and column a: the block index is (t, 0) and the block is 2048 rows by 64 columns. -/
theorem iblk3_at (c : Dev nD) (t : Fin cfg0.N) (r : Fin 2048) (a : Fin 64) (hlt : 2048 * t.val + r.val < 16384) :
    (iblk m c 3 t : Vec F S2048x64 .f32) (ix2 r a)
      = m ((c.tc : Thread nD τ).loc main_arg3) (ix2 (⟨2048 * t.val + r.val, hlt⟩ : Fin 16384) a) := by
  have hi : win0_3.index t 0 = t.val ∧ win0_3.index t 1 = 0 := by
    rcases fin_N0 t with rfl | rfl | rfl | rfl | rfl | rfl | rfl | rfl <;> decide
  unfold iblk
  rw [View.read_apply]
  show V m c main_arg3 _ = m (c.tc.loc main_arg3) _
  unfold V
  congr 1
  funext d
  apply Fin.ext
  match d with
  | ⟨0, _⟩ => show win0_3.index t 0 * 2048 + 1 * r.val = 2048 * t.val + r.val; rw [hi.1]; omega
  | ⟨1, _⟩ => show win0_3.index t 1 * 64 + 1 * a.val = a.val; rw [hi.2]; omega

end Cert.KernelIdeal.KW

end
-- ==== Proof.KerRun.lean ====
/-
  The kernel's run, read: its result is the specification's `kerVal` of the four argument arrays.

  The frame certificate gives, point by point, what the eight carried accumulators and the output block hold
  (Proof/KerTuple.lean); over real-valued arguments with positive scales the accumulators after the last point are the
  eight sums over all 16384 rows and the output block the final combination of them, `kerVal` (Proof/KerChain.lean, with
  the input windows' blocks read as rows 2048·t … 2048·t + 2047 of the arguments, Proof/KerWindow.lean). The output
  window is written back at the last grid point only, and its one block is the whole [1,1] result array; the host
  operation after the region reshapes that array to a scalar.
-/
import proofs.«105850_j61564061221261_1_alg».proof.Proof.KerTuple
import proofs.«105850_j61564061221261_1_alg».proof.Proof.KerChain
import proofs.«105850_j61564061221261_1_alg».proof.Proof.KerWindow
import Idealize.ShloMosaic.Lib.Pipeline.Value
import Idealize.ShloMosaic.Lib.StableHlo.Run
import Idealize.ShloMosaic.Lib.Tactic

set_option maxRecDepth 16384

noncomputable section

namespace Cert.KernelIdeal.KR

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

theorem lt8 {n : ℕ} (h : n < 8) : n < cfg0.N := lt_of_lt_of_eq h (show cfg0.N = 8 from N_0).symm

section Device

variable (c : Dev nD) (g u s v : Cert.KLSpec.Arr)

/-- The result array of the region: one entry, `kerVal`. -/
abbrev result : Buf (Elt Ideal) ((c.tc : Thread nD τ).loc main_v0) := fun _ => ((Cert.KLSpec.kerVal g u s v : ℝ) : EReal)

variable
  (h0 : ∀ (n : Fin 16384) (i : Fin 64), m ((c.tc : Thread nD τ).loc main_arg0) (ix2 n i) = ((g n i : ℝ) : EReal))
  (h1 : ∀ (n : Fin 16384) (i : Fin 64), m ((c.tc : Thread nD τ).loc main_arg1) (ix2 n i) = ((u n i : ℝ) : EReal))
  (h2 : ∀ (n : Fin 16384) (i : Fin 64), m ((c.tc : Thread nD τ).loc main_arg2) (ix2 n i) = ((s n i : ℝ) : EReal))
  (h3 : ∀ (n : Fin 16384) (i : Fin 64), m ((c.tc : Thread nD τ).loc main_arg3) (ix2 n i) = ((v n i : ℝ) : EReal))
  (hs : ∀ n i, 0 < s n i) (hv : ∀ n j, 0 < v n j)

include h0 h1 h2 h3 hs hv

/-- After the last grid point the output block holds `kerVal`. -/
theorem out_value (j : S1x1.Idx) :
    (outsAt0 m c 7 (lt8 (by decide))).1 j = ((Cert.KLSpec.kerVal g u s v : ℝ) : EReal) := by
  rw [KT.last_point m c 6 (lt8 (by decide)) (by decide)]
  exact KCh.chain_value g u s v hs hv
    (fun n h => iblk m c 0 ⟨n, lt8 h⟩) (fun n h => iblk m c 1 ⟨n, lt8 h⟩) (fun n h => iblk m c 2 ⟨n, lt8 h⟩) (fun n h => iblk m c 3 ⟨n, lt8 h⟩)
    (fun n h r a => (KW.iblk0_at m c ⟨n, lt8 h⟩ r a (Cert.KLSums.rowOf n h r).isLt).trans (h0 (Cert.KLSums.rowOf n h r) a))
    (fun n h r a => (KW.iblk1_at m c ⟨n, lt8 h⟩ r a (Cert.KLSums.rowOf n h r).isLt).trans (h1 (Cert.KLSums.rowOf n h r) a))
    (fun n h r a => (KW.iblk2_at m c ⟨n, lt8 h⟩ r a (Cert.KLSums.rowOf n h r).isLt).trans (h2 (Cert.KLSums.rowOf n h r) a))
    (fun n h r a => (KW.iblk3_at m c ⟨n, lt8 h⟩ r a (Cert.KLSums.rowOf n h r).isLt).trans (h3 (Cert.KLSums.rowOf n h r) a))
    (fun n h => (outsAt0 m c n (lt8 h)).2.1)
    (fun n h => (outsAt0 m c n (lt8 h)).2.2.1)
    (fun n h => (outsAt0 m c n (lt8 h)).2.2.2.1)
    (fun n h => (outsAt0 m c n (lt8 h)).2.2.2.2.1)
    (fun n h => (outsAt0 m c n (lt8 h)).2.2.2.2.2.1)
    (fun n h => (outsAt0 m c n (lt8 h)).2.2.2.2.2.2.1)
    (fun n h => (outsAt0 m c n (lt8 h)).2.2.2.2.2.2.2.1)
    (fun n h => (outsAt0 m c n (lt8 h)).2.2.2.2.2.2.2.2)
    (fun h => congrArg (fun p => p.1) (KT.first_point m c (lt8 h)))
    (fun h => congrArg (fun p => p.2.1) (KT.first_point m c (lt8 h)))
    (fun h => congrArg (fun p => p.2.2.1) (KT.first_point m c (lt8 h)))
    (fun h => congrArg (fun p => p.2.2.2.1) (KT.first_point m c (lt8 h)))
    (fun h => congrArg (fun p => p.2.2.2.2.1) (KT.first_point m c (lt8 h)))
    (fun h => congrArg (fun p => p.2.2.2.2.2.1) (KT.first_point m c (lt8 h)))
    (fun h => congrArg (fun p => p.2.2.2.2.2.2.1) (KT.first_point m c (lt8 h)))
    (fun h => congrArg (fun p => p.2.2.2.2.2.2.2) (KT.first_point m c (lt8 h)))
    (fun n h => congrArg (fun p => p.1) (KT.next_point m c n (lt8 h)))
    (fun n h => congrArg (fun p => p.2.1) (KT.next_point m c n (lt8 h)))
    (fun n h => congrArg (fun p => p.2.2.1) (KT.next_point m c n (lt8 h)))
    (fun n h => congrArg (fun p => p.2.2.2.1) (KT.next_point m c n (lt8 h)))
    (fun n h => congrArg (fun p => p.2.2.2.2.1) (KT.next_point m c n (lt8 h)))
    (fun n h => congrArg (fun p => p.2.2.2.2.2.1) (KT.next_point m c n (lt8 h)))
    (fun n h => congrArg (fun p => p.2.2.2.2.2.2.1) (KT.next_point m c n (lt8 h)))
    (fun n h => congrArg (fun p => p.2.2.2.2.2.2.2) (KT.next_point m c n (lt8 h)))
    (by decide) j

/-- The one write-back, at the last point, writes it: block (0, 0) of the [1,1] array is the array. -/
theorem flushed_eq (t : Fin cfg0.N) (hf : (cfg0.win 4).flush t = true) :
    (dats m 0 c).flushed 4 t = ((cfg0.win 4).blk t).view.read (Elt Ideal) (result c g u s v) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4]
  have e : (outsAt0 m c t0_7.val t0_7.isLt).1 = result c g u s v :=
    funext fun j => out_value m c g u s v h0 h1 h2 h3 hs hv j
  rw [e]
  have hz' : (fun a => win0_4.index t0_7 a * main_v0.ty.shape.size a) = fun _ => 0 := funext fun a => by fin_cases a <;> decide
  exact (Memref.read_access_unit_zero (Elt Ideal) main_v0 hz' (fun a => by rw [congrFun hz' a]; simp) (result c g u s v)).symm

/-- So the region's result array ends holding `kerVal`: the last point's block covers it. -/
theorem final_o : (dats m 0 c).arrAt 4 cfg0.N = result c g u s v :=
  (dats m 0 c).arrAt_eq_of_cover 4 (result c g u s v) (flushed_eq m c g u s v h0 h1 h2 h3 hs hv) fun i =>
    ⟨t0_7, (flush0_4 t0_7).mpr rfl, by
      show i ∈ ((View.whole main_v0).slice (win0_4.rect t0_7)).set
      rw [View.set_slice_whole, Rect.mem_set_unit]
      intro a
      have i0 : (i 0 : Nat) < 1 := (i 0).isLt
      have i1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-- The host operation after the region reshapes the [1,1] array to a scalar: the same number. -/
theorem tail_value :
    Pipeline.afterTail₀ cfgs (dats m) 0 (V0 m) [hostOps1] c main_v1 = fun _ => ((Cert.KLSpec.kerVal g u s v : ℝ) : EReal) := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.devRef .tc main_v0)
      = result c g u s v :=
    (Pipeline.withArrays_arr spec0 launch0.win.arr_inj c _ _ 4).trans (final_o m c g u s v h0 h1 h2 h3 hs hv)
  show shapeCast main_v1.ty.shape (Pipeline.withArrays (cfgs 0).spec c (V0 m c) (fun w => (dats m 0 c).arrAt w (cfgs 0).N)
      (Proc.devRef .tc main_v0)) shapeCasts_S1x1_S_ i = _
  rw [e]
  rfl

end Device

/-- The kernel's run, read: on every device, every weakly fair execution of the program terminates with the scalar result
    at `kerVal` of that device's argument arrays, and the arguments unchanged. -/
theorem run (g u s v : Dev nD → Cert.KLSpec.Arr)
    (h0 : ∀ (c : Dev nD) (n : Fin 16384) (i : Fin 64), m ((c.tc : Thread nD τ).loc main_arg0) (ix2 n i) = ((g c n i : ℝ) : EReal))
    (h1 : ∀ (c : Dev nD) (n : Fin 16384) (i : Fin 64), m ((c.tc : Thread nD τ).loc main_arg1) (ix2 n i) = ((u c n i : ℝ) : EReal))
    (h2 : ∀ (c : Dev nD) (n : Fin 16384) (i : Fin 64), m ((c.tc : Thread nD τ).loc main_arg2) (ix2 n i) = ((s c n i : ℝ) : EReal))
    (h3 : ∀ (c : Dev nD) (n : Fin 16384) (i : Fin 64), m ((c.tc : Thread nD τ).loc main_arg3) (ix2 n i) = ((v c n i : ℝ) : EReal))
    (hs : ∀ c n i, 0 < s c n i) (hv : ∀ c n j, 0 < v c n j) :
    θ_run defs (onTc (τ := τ) (main (F := Ideal))) ⟨m, fun _ => 0, ρ⟩ (fun r => ∀ c : Dev nD,
      r.2.mem ((c.tc : Thread nD τ).loc main_v1) = (fun _ => ((Cert.KLSpec.kerVal (g c) (u c) (s c) (v c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v1 (Pipeline.mem_restRefs_of main_v1 (by decide) (by decide))).trans
        (tail_value m c (g c) (u c) (s c) (v c) (h0 c) (h1 c) (h2 c) (h3 c) (hs c) (hv c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KR

end
-- ==== Proof.RefValue.lean ====
/-
  The reference program read at the ideal instance.

  At the ideal instance every float is an extended real and every operation is the exact one. When the four
  argument arrays hold real numbers (`g`, `u` the means, `s`, `v` the scales) and the scales are positive, no
  operation of the reference program leaves the reals: the two logarithms are taken at positive numbers and the
  two quotients have the nonzero denominators `2 s²` and `2 v²`. The program's result is then the cast of the real
  number `refVal g u s v`. The proof follows the program: the two integrands over `[16384, 64, 64]` are the casts
  of `kl1` and `kl2`; a sum of casts is the cast of the sum; a quotient by a nonzero real constant is the cast of
  the real quotient.
-/
import proofs.«105850_j61564061221261_1_alg».proof.Proof.Spec
import proofs.«105850_j61564061221261_1_alg».proof.Proof.Gen.ReferenceIdeal.Read
import Idealize.ShloMosaic.Lib.ValueIdx
import Idealize.ShloMosaic.PureOps.Ideal.Laws

noncomputable section

namespace Cert.KLRef

open Idealize.ShloMosaic Cert.ReferenceIdeal Cert.ReferenceIdeal.Read

/-! ### The constants of the program -/

/-- The pattern `0x40000000` is `2`. -/
theorem two_f32 : Ideal.ofBits .f32 0x40000000#32 = ((2 : ℝ) : EReal) := by
  simp [Ideal.ofBits, Ideal.ieee, -EReal.coe_mul]; norm_num

/-- The pattern `0x3F000000` is `1/2`. -/
theorem half_f32 : Ideal.ofBits .f32 0x3F000000#32 = ((1 / 2 : ℝ) : EReal) := by
  simp [Ideal.ofBits, Ideal.ieee, -EReal.coe_mul]; norm_num

/-- The pattern `0x46800000` is `16384`. -/
theorem c16384_f32 : Ideal.ofBits .f32 0x46800000#32 = ((16384 : ℝ) : EReal) := by
  simp [Ideal.ofBits, Ideal.ieee, -EReal.coe_mul]; norm_num

/-- The pattern `0x45800000` is `4096`. -/
theorem c4096_f32 : Ideal.ofBits .f32 0x45800000#32 = ((4096 : ℝ) : EReal) := by
  simp [Ideal.ofBits, Ideal.ieee, -EReal.coe_mul]; norm_num

/-! ### Casts -/

/-- A quotient of two reals, the divisor nonzero, is the cast of the real quotient. -/
theorem div_coe_coe (x y : ℝ) (h : y ≠ 0) : Ideal.div (x : EReal) (y : EReal) = ((x / y : ℝ) : EReal) := by
  rw [Ideal.div_coe h, ← EReal.coe_mul, mul_one_div]

/-- A finite sum of casts is the cast of the sum. -/
theorem coe_sum {ι : Type} (t : Finset ι) (f : ι → ℝ) :
    ∑ k ∈ t, ((f k : ℝ) : EReal) = ((∑ k ∈ t, f k : ℝ) : EReal) := by
  classical
  refine Finset.induction_on t (by simp) (fun a t ha ih => ?_)
  rw [Finset.sum_insert ha, Finset.sum_insert ha, ih, EReal.coe_add]

/-- One integrand on the extended reals, `ls - lv + (p² + (q - r)²) / (2 t²) - 1/2` with `t ≠ 0`, is the cast of
    the same real expression. -/
theorem kl_coe (ls lv p q r t : ℝ) (ht : 2 * (t * t) ≠ 0) :
    ((ls : EReal) - (lv : EReal)
        + Ideal.div ((p : EReal) * (p : EReal) + ((q : EReal) - (r : EReal)) * ((q : EReal) - (r : EReal)))
            (((2 : ℝ) : EReal) * ((t : EReal) * (t : EReal)))) - ((1 / 2 : ℝ) : EReal)
      = ((ls - lv + (p * p + (q - r) * (q - r)) / (2 * (t * t)) - 1 / 2 : ℝ) : EReal) := by
  rw [← EReal.coe_mul, ← EReal.coe_mul, ← EReal.coe_mul, ← EReal.coe_sub, ← EReal.coe_sub, ← EReal.coe_mul,
    ← EReal.coe_add, div_coe_coe _ _ ht, ← EReal.coe_add, ← EReal.coe_sub]

section
variable (x0 x1 x2 x3 : (⟨S16384x64, .f32⟩ : BufTy).Contents (Elt Ideal)) (g u s v : Cert.KLSpec.Arr)
  (h0 : ∀ (n : Fin 16384) (i : Fin 64), x0 (ValueIdx.ix2 n i) = ((g n i : ℝ) : EReal))
  (h1 : ∀ (n : Fin 16384) (i : Fin 64), x1 (ValueIdx.ix2 n i) = ((u n i : ℝ) : EReal))
  (h2 : ∀ (n : Fin 16384) (i : Fin 64), x2 (ValueIdx.ix2 n i) = ((s n i : ℝ) : EReal))
  (h3 : ∀ (n : Fin 16384) (i : Fin 64), x3 (ValueIdx.ix2 n i) = ((v n i : ℝ) : EReal))
  (hs : ∀ n i, 0 < s n i) (hv : ∀ n j, 0 < v n j)
include h0 h1 h2 h3 hs hv

/-! ### The two integrands over `[16384, 64, 64]` -/

/-- The first integrand at `(n, a, b)` is `kl1`: the broadcasts read `s`, `g` at `(n, a)` and `v`, `u` at `(n, b)`. -/
theorem integrand1 (n : Fin 16384) (a b : Fin 64) :
    val_main_v25 (F := Ideal) x0 x1 x2 x3 (ValueIdx.ix3 n a b) = ((Cert.KLSpec.kl1 g u s v n a b : ℝ) : EReal) := by
  have e_s1 : x2 (idx_main_v1 (idx_main_v14 (ValueIdx.ix3 n a b))) = ((s n a : ℝ) : EReal) :=
    (congrArg x2 (funext fun d => Fin.ext (by match d with | ⟨0, _⟩ => rfl | ⟨1, _⟩ => rfl))).trans (h2 n a)
  have e_v1 : x3 (idx_main_v3 (idx_main_v15 (ValueIdx.ix3 n a b))) = ((v n b : ℝ) : EReal) :=
    (congrArg x3 (funext fun d => Fin.ext (by match d with | ⟨0, _⟩ => rfl | ⟨1, _⟩ => rfl))).trans (h3 n b)
  have e_v2 : x3 (idx_main_v7 (idx_main_v17 (ValueIdx.ix3 n a b))) = ((v n b : ℝ) : EReal) :=
    (congrArg x3 (funext fun d => Fin.ext (by match d with | ⟨0, _⟩ => rfl | ⟨1, _⟩ => rfl))).trans (h3 n b)
  have e_u : x1 (idx_main_v8 (idx_main_v10 (ValueIdx.ix3 n a b))) = ((u n b : ℝ) : EReal) :=
    (congrArg x1 (funext fun d => Fin.ext (by match d with | ⟨0, _⟩ => rfl | ⟨1, _⟩ => rfl))).trans (h1 n b)
  have e_g : x0 (idx_main_v9 (idx_main_v11 (ValueIdx.ix3 n a b))) = ((g n a : ℝ) : EReal) :=
    (congrArg x0 (funext fun d => Fin.ext (by match d with | ⟨0, _⟩ => rfl | ⟨1, _⟩ => rfl))).trans (h0 n a)
  have e_s2 : x2 (idx_main_v5 (idx_main_v21 (ValueIdx.ix3 n a b))) = ((s n a : ℝ) : EReal) :=
    (congrArg x2 (funext fun d => Fin.ext (by match d with | ⟨0, _⟩ => rfl | ⟨1, _⟩ => rfl))).trans (h2 n a)
  simp only [val_main_v25_apply, val_main_v23_apply, val_main_v24_apply, val_main_cst_0_apply, val_main_v16_apply,
    val_main_v22_apply, val_main_v14_apply, val_main_v15_apply, val_main_v1_apply, val_main_v3_apply, val_main_v0_apply,
    val_main_v2_apply, val_main_v18_apply, val_main_v21_apply, val_main_v17_apply, val_main_v13_apply, val_main_v7_apply,
    val_main_v6_apply, val_main_v12_apply, val_main_v10_apply, val_main_v11_apply, val_main_v8_apply, val_main_v9_apply,
    val_main_v20_apply, val_main_v19_apply, val_main_cst_apply, val_main_v5_apply, val_main_v4_apply,
    e_s1, e_v1, e_v2, e_u, e_g, e_s2,
    Ideal.subf_def, Ideal.addf_def, Ideal.mulf_def, Ideal.hostDivf_def, Ideal.hostUnary_log_def, Ideal.ofBits_def,
    two_f32, half_f32, Ideal.log_coe, if_neg (not_le.2 (hs n a)), if_neg (not_le.2 (hv n b))]
  exact kl_coe _ _ _ _ _ _ (mul_pos two_pos (mul_pos (hs n a) (hs n a))).ne'

/-- The second integrand at `(n, a, b)` is `kl2`. -/
theorem integrand2 (n : Fin 16384) (a b : Fin 64) :
    val_main_v40 (F := Ideal) x0 x1 x2 x3 (ValueIdx.ix3 n a b) = ((Cert.KLSpec.kl2 g u s v n a b : ℝ) : EReal) := by
  have e_v1 : x3 (idx_main_v3 (idx_main_v29 (ValueIdx.ix3 n a b))) = ((v n b : ℝ) : EReal) :=
    (congrArg x3 (funext fun d => Fin.ext (by match d with | ⟨0, _⟩ => rfl | ⟨1, _⟩ => rfl))).trans (h3 n b)
  have e_s1 : x2 (idx_main_v1 (idx_main_v30 (ValueIdx.ix3 n a b))) = ((s n a : ℝ) : EReal) :=
    (congrArg x2 (funext fun d => Fin.ext (by match d with | ⟨0, _⟩ => rfl | ⟨1, _⟩ => rfl))).trans (h2 n a)
  have e_s2 : x2 (idx_main_v5 (idx_main_v32 (ValueIdx.ix3 n a b))) = ((s n a : ℝ) : EReal) :=
    (congrArg x2 (funext fun d => Fin.ext (by match d with | ⟨0, _⟩ => rfl | ⟨1, _⟩ => rfl))).trans (h2 n a)
  have e_u : x1 (idx_main_v8 (idx_main_v10 (ValueIdx.ix3 n a b))) = ((u n b : ℝ) : EReal) :=
    (congrArg x1 (funext fun d => Fin.ext (by match d with | ⟨0, _⟩ => rfl | ⟨1, _⟩ => rfl))).trans (h1 n b)
  have e_g : x0 (idx_main_v9 (idx_main_v11 (ValueIdx.ix3 n a b))) = ((g n a : ℝ) : EReal) :=
    (congrArg x0 (funext fun d => Fin.ext (by match d with | ⟨0, _⟩ => rfl | ⟨1, _⟩ => rfl))).trans (h0 n a)
  have e_v2 : x3 (idx_main_v7 (idx_main_v36 (ValueIdx.ix3 n a b))) = ((v n b : ℝ) : EReal) :=
    (congrArg x3 (funext fun d => Fin.ext (by match d with | ⟨0, _⟩ => rfl | ⟨1, _⟩ => rfl))).trans (h3 n b)
  simp only [val_main_v40_apply, val_main_v38_apply, val_main_v39_apply, val_main_cst_4_apply, val_main_v31_apply,
    val_main_v37_apply, val_main_v29_apply, val_main_v30_apply, val_main_v3_apply, val_main_v2_apply, val_main_v1_apply,
    val_main_v0_apply, val_main_v33_apply, val_main_v36_apply, val_main_v32_apply, val_main_v5_apply, val_main_v4_apply,
    val_main_v13_apply, val_main_v12_apply, val_main_v10_apply, val_main_v11_apply, val_main_v8_apply, val_main_v9_apply,
    val_main_v35_apply, val_main_v34_apply, val_main_cst_3_apply, val_main_v7_apply, val_main_v6_apply,
    e_v1, e_s1, e_s2, e_u, e_g, e_v2,
    Ideal.subf_def, Ideal.addf_def, Ideal.mulf_def, Ideal.hostDivf_def, Ideal.hostUnary_log_def, Ideal.ofBits_def,
    two_f32, half_f32, Ideal.log_coe, if_neg (not_le.2 (hs n a)), if_neg (not_le.2 (hv n b))]
  exact kl_coe _ _ _ _ _ _ (mul_pos two_pos (mul_pos (hv n b) (hv n b))).ne'

/-! ### The two means over the rows -/

/-- The first row mean at `(a, b)`. -/
theorem mean1 (a b : Fin 64) :
    val_main_v28 (F := Ideal) x0 x1 x2 x3 (ValueIdx.ix2 a b)
      = (((∑ n : Fin 16384, Cert.KLSpec.kl1 g u s v n a b) / 16384 : ℝ) : EReal) := by
  have hidx : ∀ k : Fin 16384, idx_main_v26 (ValueIdx.ix2 a b) k = ValueIdx.ix3 k a b := fun k =>
    funext fun d => Fin.ext (by match d with | ⟨0, _⟩ => rfl | ⟨1, _⟩ => rfl | ⟨2, _⟩ => rfl)
  rw [val_main_v28_apply, val_main_v26_apply, val_main_v27_apply, val_main_cst_2_apply, val_main_cst_1_apply,
    Ideal.hostDivf_def, Ideal.ofBits_def, Ideal.ofBits_def, Ideal.ofBits_zero_f32, zero_add, c16384_f32,
    Finset.sum_congr rfl (fun k _ => (congrArg _ (hidx k)).trans (integrand1 x0 x1 x2 x3 g u s v h0 h1 h2 h3 hs hv k a b)),
    coe_sum, div_coe_coe _ _ (by norm_num)]

/-- The second row mean at `(a, b)`. -/
theorem mean2 (a b : Fin 64) :
    val_main_v43 (F := Ideal) x0 x1 x2 x3 (ValueIdx.ix2 a b)
      = (((∑ n : Fin 16384, Cert.KLSpec.kl2 g u s v n a b) / 16384 : ℝ) : EReal) := by
  have hidx : ∀ k : Fin 16384, idx_main_v41 (ValueIdx.ix2 a b) k = ValueIdx.ix3 k a b := fun k =>
    funext fun d => Fin.ext (by match d with | ⟨0, _⟩ => rfl | ⟨1, _⟩ => rfl | ⟨2, _⟩ => rfl)
  rw [val_main_v43_apply, val_main_v41_apply, val_main_v42_apply, val_main_cst_6_apply, val_main_cst_5_apply,
    Ideal.hostDivf_def, Ideal.ofBits_def, Ideal.ofBits_def, Ideal.ofBits_zero_f32, zero_add, c16384_f32,
    Finset.sum_congr rfl (fun k _ => (congrArg _ (hidx k)).trans (integrand2 x0 x1 x2 x3 g u s v h0 h1 h2 h3 hs hv k a b)),
    coe_sum, div_coe_coe _ _ (by norm_num)]

/-- Half the sum of the two row means at `(a, b)`. -/
theorem halfsum (a b : Fin 64) :
    val_main_v46 (F := Ideal) x0 x1 x2 x3 (ValueIdx.ix2 a b)
      = (((1 / 2 : ℝ) * ((∑ n : Fin 16384, Cert.KLSpec.kl1 g u s v n a b) / 16384
            + (∑ n : Fin 16384, Cert.KLSpec.kl2 g u s v n a b) / 16384) : ℝ) : EReal) := by
  rw [val_main_v46_apply, val_main_v45_apply, val_main_cst_7_apply, val_main_v44_apply,
    mean1 x0 x1 x2 x3 g u s v h0 h1 h2 h3 hs hv a b, mean2 x0 x1 x2 x3 g u s v h0 h1 h2 h3 hs hv a b,
    Ideal.mulf_def, Ideal.addf_def, Ideal.ofBits_def, half_f32, ← EReal.coe_add, ← EReal.coe_mul]

end

/-! ### The result -/

open Idealize.ShloMosaic in
theorem ref_value (x0 x1 x2 x3 : (⟨Cert.ReferenceIdeal.S16384x64, .f32⟩ : BufTy).Contents (Elt Ideal)) (g u s v : Cert.KLSpec.Arr)
    (h0 : ∀ (n : Fin 16384) (i : Fin 64), x0 (ValueIdx.ix2 n i) = ((g n i : ℝ) : EReal))
    (h1 : ∀ (n : Fin 16384) (i : Fin 64), x1 (ValueIdx.ix2 n i) = ((u n i : ℝ) : EReal))
    (h2 : ∀ (n : Fin 16384) (i : Fin 64), x2 (ValueIdx.ix2 n i) = ((s n i : ℝ) : EReal))
    (h3 : ∀ (n : Fin 16384) (i : Fin 64), x3 (ValueIdx.ix2 n i) = ((v n i : ℝ) : EReal))
    (hs : ∀ n i, 0 < s n i) (hv : ∀ n j, 0 < v n j) (i : Cert.ReferenceIdeal.S_.Idx) :
    Cert.ReferenceIdeal.Read.val_main_v48 (F := Ideal) x0 x1 x2 x3 i = ((Cert.KLSpec.refVal g u s v : ℝ) : EReal) := by
  rw [val_main_v48_apply, val_main_v47_apply, val_main_cst_9_apply, val_main_cst_8_apply,
    Ideal.hostDivf_def, Ideal.ofBits_def, Ideal.ofBits_def, Ideal.ofBits_zero_f32, zero_add, c4096_f32,
    ValueIdx.sum_idx2,
    Finset.sum_congr rfl (fun a _ => Finset.sum_congr rfl (fun b _ => halfsum x0 x1 x2 x3 g u s v h0 h1 h2 h3 hs hv a b))]
  simp only [coe_sum]
  rw [div_coe_coe _ _ (by norm_num)]
  rfl

end Cert.KLRef

end
-- ==== Proof.PreReals.lean ====
/-
  What the precondition says. The precondition is a pure function of the four argument arrays that
  returns one bit: for each array the conjunction over all entries of |x| < +infinity, and for
  arguments 2 and 3 also the conjunction over all entries of x > 0, all six joined by "and". Read at
  extended reals, |x| = max x (-x) below the top element excludes both infinities (a NaN denotes
  the bottom element, so it is excluded too), which leaves the reals; and x > 0 is positivity of
  that real. Each conjunction over all entries is a reduction by "and" from 1 into a single result,
  which is 1 only if every entry is 1.
-/
import proofs.«105850_j61564061221261_1_alg».proof.Proof.Spec
import proofs.«105850_j61564061221261_1_alg».proof.Pre_finite_inputs
import Idealize.ShloMosaic.PureOps.Ideal
import Idealize.ShloMosaic.Lib.ValueIdx
import Idealize.ShloMosaic.Lib.ReduceAll

noncomputable section

namespace Cert.KLPre

open Idealize.ShloMosaic

variable [Cert.Pre_finite_inputs.Facts]

/-- The rank-0 shape has exactly one index. -/
instance subsingleton_scalarIdx : Subsingleton Cert.Pre_finite_inputs.S_.Idx :=
  ⟨fun a b => funext fun d => d.elim0⟩

/-- The f32 pattern of +infinity denotes the top element of the extended reals. -/
theorem inf_eq_top : Ideal.ofBits .f32 0x7F800000#32 = (⊤ : EReal) := by
  simp [Ideal.ofBits, Ideal.ieee]

/-- The f32 pattern of +0.0 denotes zero. -/
theorem zero_eq_zero : Ideal.ofBits .f32 0x00000000#32 = (0 : EReal) := by
  simp [Ideal.ofBits, Ideal.ieee]

/-- A one-bit word made from a Boolean is 1 exactly when the Boolean is true. -/
theorem ofBool_eq_one (b : Bool) : BitVec.ofBool b = 1#1 ↔ b = true := by
  cases b <;> decide

/-- An ordered less-than comparison that came out 1 says its left side is below its right side. -/
theorem lt_of_cmp_olt (a b : EReal) (h : Ideal.cmp .olt a b = 1#1) : a < b := by
  unfold Ideal.cmp at h
  rw [ofBool_eq_one] at h
  exact of_decide_eq_true h

/-- An ordered greater-than comparison that came out 1 says its right side is below its left side. -/
theorem lt_of_cmp_ogt (a b : EReal) (h : Ideal.cmp .ogt a b = 1#1) : b < a := by
  unfold Ideal.cmp at h
  rw [ofBool_eq_one] at h
  exact of_decide_eq_true h

/-- An extended real whose absolute value max x (-x) is below +infinity is neither infinity, hence a real:
    it is the coercion of its own real part. -/
theorem coe_toReal_of_abs_lt_top (x : EReal) (h : max x (-x) < ⊤) : x = ((x.toReal : ℝ) : EReal) := by
  have h1 : x ≠ ⊤ := by rintro rfl; simp at h
  have h2 : x ≠ ⊥ := by rintro rfl; simp at h
  exact (EReal.coe_toReal h1 h2).symm

/-- all(|x| < +inf) = 1 says every entry has absolute value below +infinity. -/
theorem abs_lt_top_of_all (x : FVec Ideal Cert.Pre_finite_inputs.S16384x64 .f32)
    (h : Host.reduce IntOp.andi
          (cmpf .olt (Host.absf x)
            (broadcastInDim Cert.Pre_finite_inputs.S16384x64 ![] Cert.Pre_finite_inputs.Facts.bcast_S_S16384x64
              (constant Cert.Pre_finite_inputs.S_ .f32 0x7F800000#32)))
          (constantI Cert.Pre_finite_inputs.S_ 1 1#1)
          Cert.Pre_finite_inputs.Facts.reducesTo_S16384x64_S_d0_1 Cert.Pre_finite_inputs.Facts.h_S_ ValueIdx.ix0 = 1#1)
    (j : Cert.Pre_finite_inputs.S16384x64.Idx) : max (x j) (-(x j)) < ⊤ := by
  have e := Host.reduce_andi_all _ _ _ _ _ h j
  have e' : Ideal.cmp .olt (max (x j) (-(x j))) (Ideal.ofBits .f32 0x7F800000#32) = 1#1 := e
  rw [inf_eq_top] at e'
  exact lt_of_cmp_olt _ _ e'

/-- all(x > 0) = 1 says every entry is above zero. -/
theorem pos_of_all (x : FVec Ideal Cert.Pre_finite_inputs.S16384x64 .f32)
    (h : Host.reduce IntOp.andi
          (cmpf .ogt x
            (broadcastInDim Cert.Pre_finite_inputs.S16384x64 ![] Cert.Pre_finite_inputs.Facts.bcast_S_S16384x64
              (constant Cert.Pre_finite_inputs.S_ .f32 0x00000000#32)))
          (constantI Cert.Pre_finite_inputs.S_ 1 1#1)
          Cert.Pre_finite_inputs.Facts.reducesTo_S16384x64_S_d0_1 Cert.Pre_finite_inputs.Facts.h_S_ ValueIdx.ix0 = 1#1)
    (j : Cert.Pre_finite_inputs.S16384x64.Idx) : (0 : EReal) < x j := by
  have e := Host.reduce_andi_all _ _ _ _ _ h j
  have e' : Ideal.cmp .ogt (x j) (Ideal.ofBits .f32 0x00000000#32) = 1#1 := e
  rw [zero_eq_zero] at e'
  exact lt_of_cmp_ogt _ _ e'

/-- What the precondition says: the four argument arrays hold real numbers, and the entries of the two
    scale arrays (arguments 2 and 3) are positive. The reals are the entries' real parts. -/
theorem reals_of_pre (x0 x1 x2 x3 : FVec Ideal Cert.Pre_finite_inputs.S16384x64 .f32)
    (h : Cert.Pre_finite_inputs.fn (F := Ideal) x0 x1 x2 x3 = fun _ => 1#1) :
    ∃ g u s v : Cert.KLSpec.Arr,
      (∀ (n : Fin 16384) (i : Fin 64), x0 (ValueIdx.ix2 n i) = ((g n i : ℝ) : EReal)) ∧
      (∀ (n : Fin 16384) (i : Fin 64), x1 (ValueIdx.ix2 n i) = ((u n i : ℝ) : EReal)) ∧
      (∀ (n : Fin 16384) (i : Fin 64), x2 (ValueIdx.ix2 n i) = ((s n i : ℝ) : EReal)) ∧
      (∀ (n : Fin 16384) (i : Fin 64), x3 (ValueIdx.ix2 n i) = ((v n i : ℝ) : EReal)) ∧
      (∀ n i, 0 < s n i) ∧ (∀ n j, 0 < v n j) := by
  have h0 := congrFun h ValueIdx.ix0
  dsimp only [Cert.Pre_finite_inputs.fn, Cert.Pre_finite_inputs.fn_part1] at h0
  simp only [andi, IntOp.andi_eq_one] at h0
  obtain ⟨⟨⟨⟨⟨f0, f1⟩, f2⟩, f3⟩, p2⟩, p3⟩ := h0
  refine ⟨fun n i => (x0 (ValueIdx.ix2 n i)).toReal, fun n i => (x1 (ValueIdx.ix2 n i)).toReal,
    fun n i => (x2 (ValueIdx.ix2 n i)).toReal, fun n i => (x3 (ValueIdx.ix2 n i)).toReal,
    fun n i => coe_toReal_of_abs_lt_top _ (abs_lt_top_of_all x0 f0 _),
    fun n i => coe_toReal_of_abs_lt_top _ (abs_lt_top_of_all x1 f1 _),
    fun n i => coe_toReal_of_abs_lt_top _ (abs_lt_top_of_all x2 f2 _),
    fun n i => coe_toReal_of_abs_lt_top _ (abs_lt_top_of_all x3 f3 _), fun n i => ?_, fun n i => ?_⟩
  · exact EReal.coe_pos.1 (lt_of_lt_of_eq (pos_of_all x2 p2 (ValueIdx.ix2 n i))
      (coe_toReal_of_abs_lt_top _ (abs_lt_top_of_all x2 f2 _)))
  · exact EReal.coe_pos.1 (lt_of_lt_of_eq (pos_of_all x3 p3 (ValueIdx.ix2 n i))
      (coe_toReal_of_abs_lt_top _ (abs_lt_top_of_all x3 f3 _)))

end Cert.KLPre

end
-- ==== Proof.Algebra.lean ====
/-
  The two formulas of `Spec.lean` agree when the scales are positive.

  At a row and a pair of coordinates write `a, b` for the scale and the mean of the first family and `c, d` for
  those of the second. The logarithms cancel in the sum of the two divergences, and expanding `(d - b)²` leaves
  half the sum of eight products minus one (`kl_scalar`). Summing over the rows turns the eight products into the
  eight accumulated sums of the specification (`pair_sum`); summing over the `64 · 64` pairs, where the two sums
  that depend on one coordinate only are each counted 64 times, gives the expanded form (`refVal_eq_kerVal`).
-/
import proofs.«105850_j61564061221261_1_alg».proof.Proof.Spec
import Mathlib.Tactic

open Finset

namespace Cert.KLSpec

/-- The identity between real numbers behind everything: `la`, `lc` stand for the two logarithms, which cancel. -/
theorem kl_scalar (a b c d la lc : ℝ) (ha : a ≠ 0) (hc : c ≠ 0) :
    (la - lc + (c * c + (d - b) * (d - b)) / (2 * (a * a)) - 1 / 2)
      + (lc - la + (a * a + (d - b) * (d - b)) / (2 * (c * c)) - 1 / 2)
    = (1 / 2 : ℝ) * ((1 / (a * a)) * (c * c) + (1 / (a * a)) * (d * d) - 2 * ((b * (1 / (a * a))) * d)
        + (a * a) * (1 / (c * c)) + (b * b) * (1 / (c * c)) - 2 * (b * (d * (1 / (c * c))))
        + (b * b) * (1 / (a * a)) + (d * d) * (1 / (c * c))) - 1 := by
  field_simp
  ring

/-- The sum of the two divergences at a row and a pair, with the logarithms gone and the squares expanded. -/
theorem kl_pointwise (g u s v : Arr) (hs : ∀ n i, 0 < s n i) (hv : ∀ n j, 0 < v n j)
    (n : Fin 16384) (i j : Fin 64) :
    kl1 g u s v n i j + kl2 g u s v n i j
    = (1 / 2 : ℝ) * ((1 / (s n i * s n i)) * (v n j * v n j) + (1 / (s n i * s n i)) * (u n j * u n j)
        - 2 * ((g n i * (1 / (s n i * s n i))) * u n j)
        + (s n i * s n i) * (1 / (v n j * v n j)) + (g n i * g n i) * (1 / (v n j * v n j))
        - 2 * (g n i * (u n j * (1 / (v n j * v n j))))
        + (g n i * g n i) * (1 / (s n i * s n i)) + (u n j * u n j) * (1 / (v n j * v n j))) - 1 := by
  unfold kl1 kl2
  exact kl_scalar (s n i) (g n i) (v n j) (u n j) (Real.log (s n i)) (Real.log (v n j))
    (ne_of_gt (hs n i)) (ne_of_gt (hv n j))

/-- The two row means at a pair, in terms of the accumulated sums. -/
theorem pair_sum (g u s v : Arr) (hs : ∀ n i, 0 < s n i) (hv : ∀ n j, 0 < v n j) (i j : Fin 64) :
    (∑ n : Fin 16384, kl1 g u s v n i j) / 16384 + (∑ n : Fin 16384, kl2 g u s v n i j) / 16384
    = ((1 / 2 : ℝ) * (raw g u s v i j + accP g s i + accQ u v j) - 16384) / 16384 := by
  have hnum : (∑ n : Fin 16384, (kl1 g u s v n i j + kl2 g u s v n i j))
      = (1 / 2 : ℝ) * (raw g u s v i j + accP g s i + accQ u v j) - 16384 := by
    rw [Finset.sum_congr rfl (fun n _ => kl_pointwise g u s v hs hv n i j)]
    unfold raw acc1 acc2 acc3 accA accB accC accP accQ
    simp only [Finset.sum_sub_distrib, Finset.sum_add_distrib, ← Finset.mul_sum, Finset.sum_const,
      Finset.card_univ, Fintype.card_fin, nsmul_eq_mul]
    push_cast
    ring
  rw [← add_div, ← Finset.sum_add_distrib, hnum]

/-- Half the two row means at a pair, spread out as a combination of the pair's sums. -/
theorem half_pair (g u s v : Arr) (hs : ∀ n i, 0 < s n i) (hv : ∀ n j, 0 < v n j) (i j : Fin 64) :
    (1 / 2 : ℝ) * ((∑ n : Fin 16384, kl1 g u s v n i j) / 16384 + (∑ n : Fin 16384, kl2 g u s v n i j) / 16384)
    = (1 / 65536 : ℝ) * raw g u s v i j + (1 / 65536 : ℝ) * accP g s i + (1 / 65536 : ℝ) * accQ u v j - 1 / 2 := by
  rw [pair_sum g u s v hs hv i j]
  ring

/-- The mean of the divergences equals the expanded form. -/
theorem refVal_eq_kerVal (g u s v : Arr) (hs : ∀ n i, 0 < s n i) (hv : ∀ n j, 0 < v n j) :
    refVal g u s v = kerVal g u s v := by
  unfold refVal kerVal
  rw [Finset.sum_congr rfl (fun i _ => Finset.sum_congr rfl (fun j _ => half_pair g u s v hs hv i j))]
  simp only [Finset.sum_sub_distrib, Finset.sum_add_distrib, ← Finset.mul_sum, Finset.sum_const,
    Finset.card_univ, Fintype.card_fin, nsmul_eq_mul]
  generalize (∑ i : Fin 64, ∑ j : Fin 64, raw g u s v i j) = R
  generalize (∑ i : Fin 64, accP g s i) = P
  generalize (∑ j : Fin 64, accQ u v j) = Q
  push_cast
  ring

end Cert.KLSpec
-- ==== Proof.lean ====
/-
  The certificate of a pairwise symmetric Gaussian divergence.

  Four arrays of 16384 rows and 64 columns: the means `g`, `u` and the scales `s`, `v` of two families of 64 latent
  coordinates. The reference forms, for every row `n` and every pair `(i, j)`, the two divergences
  `log s - log v + (v² + (u - g)²)/(2 s²) - 1/2` and `log v - log s + (s² + (u - g)²)/(2 v²) - 1/2`, averages each over the
  rows, adds, halves, and averages over the 64 · 64 pairs. The kernel never forms the logarithms — in the sum of the two
  divergences they cancel — and expands the squares: over eight grid points of 2048 rows each it accumulates six 64 × 64
  matrices of sums over the rows of products of a column of one family by a column of the other, and two rows of 64 sums
  of one family alone, and at the last point combines them into the one number.

  Over the extended reals the two agree exactly when every scale is positive: then every entry, every logarithm and
  every quotient is a real number and the identity is one of real algebra (Proof/Spec.lean states both sides, Proof/Algebra.lean
  proves them equal). With a scale that is zero or negative they differ — the reference's logarithm is infinite or
  undefined there while the kernel only ever squares the scales —, which is why the precondition asks, beside finiteness, for
  positive scales: the domain of the reference's own logarithm (Proof/PreReals.lean reads the precondition).

  The parts: the reference's result is `refVal` (Proof/RefValue.lean, over the reference's run read one operation at a
  time); the kernel's result is `kerVal` (Proof/KerRun.lean: what each control case of the body leaves in the carried
  accumulators, Proof/KerCanon.lean and Proof/KerTuple.lean; each accumulator's update at an index, Proof/KerBlock.lean; the
  accumulation over the grid, Proof/KerSums.lean and Proof/KerChain.lean; the final combination, Proof/KerFinal.lean; the input
  windows' blocks, Proof/KerWindow.lean); the idealization rewrote nothing, so `preserves` is trivial; the three frames are the
  two kernels' frame certificates and the reference's run with its result dropped.
-/
import proofs.«105850_j61564061221261_1_alg».proof.Defs
import proofs.«105850_j61564061221261_1_alg».proof.Proof.Gen.Kernel
import proofs.«105850_j61564061221261_1_alg».proof.Proof.Gen.KernelIdeal
import proofs.«105850_j61564061221261_1_alg».proof.Proof.Gen.ReferenceIdeal
import proofs.«105850_j61564061221261_1_alg».proof.Proof.Gen.ReferenceIdeal.Run
import proofs.«105850_j61564061221261_1_alg».proof.Proof.Gen.ReferenceIdeal.Read
import proofs.«105850_j61564061221261_1_alg».proof.Proof.Gen.Pre_finite_inputs
import proofs.«105850_j61564061221261_1_alg».proof.Proof.FrameKernelP
import proofs.«105850_j61564061221261_1_alg».proof.Proof.FrameKernelIdealP
import proofs.«105850_j61564061221261_1_alg».proof.Proof.KerRun
import proofs.«105850_j61564061221261_1_alg».proof.Proof.RefValue
import proofs.«105850_j61564061221261_1_alg».proof.Proof.PreReals
import proofs.«105850_j61564061221261_1_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, under the precondition: the arguments are real arrays with positive
    scales; the kernel ends at `kerVal` of them, the reference at `refVal` of them, and the two are one number. -/
theorem algebraic : Cert.algebraic_KernelIdeal_ReferenceIdeal := by
  intro m ρ m' ρ' hpre hagree
  have hr := fun c => Cert.KLPre.reals_of_pre _ _ _ _ (hpre c)
  choose g u s v h0 h1 h2 h3 hs hv using hr
  refine ⟨fun c _ => ((Cert.KLSpec.kerVal (g c) (u c) (s c) (v c) : ℝ) : EReal),
    Cert.KernelIdeal.KR.run m ρ g u s v h0 h1 h2 h3 hs hv, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2]
  funext i
  rw [Cert.KLRef.ref_value _ _ _ _ (g c) (u c) (s c) (v c) (h0 c) (h1 c) (h2 c) (h3 c) (hs c) (hv c) i,
    Cert.KLSpec.refVal_eq_kerVal (g c) (u c) (s c) (v c) (hs c) (hv c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
